-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4)) (m ((c.tc : Thread Cert.Kernel.nD Cert.Kernel.τ).loc Cert.Kernel.main_arg5)) (m ((c.tc : Thread Cert.Kernel.nD Cert.Kernel.τ).loc Cert.Kernel.main_arg6)) (m ((c.tc : Thread Cert.Kernel.nD Cert.Kernel.τ).loc Cert.Kernel.main_arg7))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6)
      ∧ r.2.mem ((c.tc : Thread Cert.Kernel.nD Cert.Kernel.τ).loc Cert.Kernel.main_arg7) = m ((c.tc : Thread Cert.Kernel.nD Cert.Kernel.τ).loc Cert.Kernel.main_arg7))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)
      ∧ m' ((c.tc : Thread Cert.ReferenceIdeal.nD Cert.ReferenceIdeal.τ).loc Cert.ReferenceIdeal.main_arg7) = m ((c.tc : Thread Cert.KernelIdeal.nD Cert.KernelIdeal.τ).loc Cert.KernelIdeal.main_arg7)) →
    ∃ (v0 : (c : Dev Cert.KernelIdeal.nD) → Buf (Elt Ideal) ((c.tc : Thread Cert.KernelIdeal.nD Cert.KernelIdeal.τ).loc Cert.KernelIdeal.main_v3)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v3) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
          ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v17) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6)
          ∧ r.2.mem ((c.tc : Thread Cert.ReferenceIdeal.nD Cert.ReferenceIdeal.τ).loc Cert.ReferenceIdeal.main_arg7) = m' ((c.tc : Thread Cert.ReferenceIdeal.nD Cert.ReferenceIdeal.τ).loc Cert.ReferenceIdeal.main_arg7))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S8x512x768 : Shape := ⟨3, ![8, 512, 768]⟩
abbrev S8x128x320 : Shape := ⟨3, ![8, 128, 320]⟩
abbrev S320x768 : Shape := ⟨2, ![320, 768]⟩
abbrev S320 : Shape := ⟨1, ![320]⟩
abbrev S320x320 : Shape := ⟨2, ![320, 320]⟩
abbrev S34x320 : Shape := ⟨2, ![34, 320]⟩
abbrev S34 : Shape := ⟨1, ![34]⟩
abbrev S_ : Shape := ⟨0, ![]⟩

class Facts : Prop where
  bcast_S_S8x512x768 : S_.BroadcastsInDim S8x512x768 (![] : Fin 0 → Fin S8x512x768.rank)
  reducesTo_S8x512x768_S_d0_1_2 : S8x512x768.ReducesTo [0, 1, 2] S_
  h_S_ : 0 < S_.numel
  bcast_S_S8x128x320 : S_.BroadcastsInDim S8x128x320 (![] : Fin 0 → Fin S8x128x320.rank)
  reducesTo_S8x128x320_S_d0_1_2 : S8x128x320.ReducesTo [0, 1, 2] S_
  bcast_S_S320x768 : S_.BroadcastsInDim S320x768 (![] : Fin 0 → Fin S320x768.rank)
  reducesTo_S320x768_S_d0_1 : S320x768.ReducesTo [0, 1] S_
  bcast_S_S320 : S_.BroadcastsInDim S320 (![] : Fin 0 → Fin S320.rank)
  reducesTo_S320_S_d0 : S320.ReducesTo [0] S_
  bcast_S_S320x320 : S_.BroadcastsInDim S320x320 (![] : Fin 0 → Fin S320x320.rank)
  reducesTo_S320x320_S_d0_1 : S320x320.ReducesTo [0, 1] S_
  bcast_S_S34x320 : S_.BroadcastsInDim S34x320 (![] : Fin 0 → Fin S34x320.rank)
  reducesTo_S34x320_S_d0_1 : S34x320.ReducesTo [0, 1] S_
  bcast_S_S34 : S_.BroadcastsInDim S34 (![] : Fin 0 → Fin S34.rank)
  reducesTo_S34_S_d0 : S34.ReducesTo [0] S_

variable [Facts]

def fn_part2 {F : FTy → Type} [FloatOps F] (main_arg7 : FVec F S34 .f32) (main_v33 : IVec S_ 1) : IVec S_ 1 :=
  let main_v34 : FVec F S34 .f32 := Host.absf main_arg7
  let main_cst_12 : FVec F S_ .f32 := constant S_ .f32 0x7F800000#32
  let main_v35 : FVec F S34 .f32 := broadcastInDim S34 ![] bcast_S_S34 main_cst_12
  let main_v36 : IVec S34 1 := cmpf .olt main_v34 main_v35
  let main_c_13 : IVec S_ 1 := constantI S_ 1 1#1
  let main_v37 : IVec S_ 1 := (fun x v => Host.reduce IntOp.andi x v reducesTo_S34_S_d0 h_S_) main_v36 main_c_13
  let main_v38 : IVec S_ 1 := andi main_v33 main_v37
  main_v38

def fn_part1 {F : FTy → Type} [FloatOps F] (main_arg4 : FVec F S320x320 .f32) (main_arg5 : FVec F S320 .f32) (main_arg6 : FVec F S34x320 .f32) (main_arg7 : FVec F S34 .f32) (main_v13 : IVec S_ 1) (main_v16 : IVec S320 1) : IVec S_ 1 :=
  let main_c_5 : IVec S_ 1 := constantI S_ 1 1#1
  let main_v17 : IVec S_ 1 := (fun x v => Host.reduce IntOp.andi x v reducesTo_S320_S_d0 h_S_) main_v16 main_c_5
  let main_v18 : IVec S_ 1 := andi main_v13 main_v17
  let main_v19 : FVec F S320x320 .f32 := Host.absf main_arg4
  let main_cst_6 : FVec F S_ .f32 := constant S_ .f32 0x7F800000#32
  let main_v20 : FVec F S320x320 .f32 := broadcastInDim S320x320 ![] bcast_S_S320x320 main_cst_6
  let main_v21 : IVec S320x320 1 := cmpf .olt main_v19 main_v20
  let main_c_7 : IVec S_ 1 := constantI S_ 1 1#1
  let main_v22 : IVec S_ 1 := (fun x v => Host.reduce IntOp.andi x v reducesTo_S320x320_S_d0_1 h_S_) main_v21 main_c_7
  let main_v23 : IVec S_ 1 := andi main_v18 main_v22
  let main_v24 : FVec F S320 .f32 := Host.absf main_arg5
  let main_cst_8 : FVec F S_ .f32 := constant S_ .f32 0x7F800000#32
  let main_v25 : FVec F S320 .f32 := broadcastInDim S320 ![] bcast_S_S320 main_cst_8
  let main_v26 : IVec S320 1 := cmpf .olt main_v24 main_v25
  let main_c_9 : IVec S_ 1 := constantI S_ 1 1#1
  let main_v27 : IVec S_ 1 := (fun x v => Host.reduce IntOp.andi x v reducesTo_S320_S_d0 h_S_) main_v26 main_c_9
  let main_v28 : IVec S_ 1 := andi main_v23 main_v27
  let main_v29 : FVec F S34x320 .f32 := Host.absf main_arg6
  let main_cst_10 : FVec F S_ .f32 := constant S_ .f32 0x7F800000#32
  let main_v30 : FVec F S34x320 .f32 := broadcastInDim S34x320 ![] bcast_S_S34x320 main_cst_10
  let main_v31 : IVec S34x320 1 := cmpf .olt main_v29 main_v30
  let main_c_11 : IVec S_ 1 := constantI S_ 1 1#1
  let main_v32 : IVec S_ 1 := (fun x v => Host.reduce IntOp.andi x v reducesTo_S34x320_S_d0_1 h_S_) main_v31 main_c_11
  let main_v33 : IVec S_ 1 := andi main_v28 main_v32
  fn_part2 (F := F) main_arg7 main_v33

def fn {F : FTy → Type} [FloatOps F] (main_arg0 : FVec F S8x512x768 .f32) (main_arg1 : FVec F S8x128x320 .f32) (main_arg2 : FVec F S320x768 .f32) (main_arg3 : FVec F S320 .f32) (main_arg4 : FVec F S320x320 .f32) (main_arg5 : FVec F S320 .f32) (main_arg6 : FVec F S34x320 .f32) (main_arg7 : FVec F S34 .f32) : IVec S_ 1 :=
  let main_v0 : FVec F S8x512x768 .f32 := Host.absf main_arg0
  let main_cst : FVec F S_ .f32 := constant S_ .f32 0x7F800000#32
  let main_v1 : FVec F S8x512x768 .f32 := broadcastInDim S8x512x768 ![] bcast_S_S8x512x768 main_cst
  let main_v2 : IVec S8x512x768 1 := cmpf .olt main_v0 main_v1
  let main_c : IVec S_ 1 := constantI S_ 1 1#1
  let main_v3 : IVec S_ 1 := (fun x v => Host.reduce IntOp.andi x v reducesTo_S8x512x768_S_d0_1_2 h_S_) main_v2 main_c
  let main_v4 : FVec F S8x128x320 .f32 := Host.absf main_arg1
  let main_cst_0 : FVec F S_ .f32 := constant S_ .f32 0x7F800000#32
  let main_v5 : FVec F S8x128x320 .f32 := broadcastInDim S8x128x320 ![] bcast_S_S8x128x320 main_cst_0
  let main_v6 : IVec S8x128x320 1 := cmpf .olt main_v4 main_v5
  let main_c_1 : IVec S_ 1 := constantI S_ 1 1#1
  let main_v7 : IVec S_ 1 := (fun x v => Host.reduce IntOp.andi x v reducesTo_S8x128x320_S_d0_1_2 h_S_) main_v6 main_c_1
  let main_v8 : IVec S_ 1 := andi main_v3 main_v7
  let main_v9 : FVec F S320x768 .f32 := Host.absf main_arg2
  let main_cst_2 : FVec F S_ .f32 := constant S_ .f32 0x7F800000#32
  let main_v10 : FVec F S320x768 .f32 := broadcastInDim S320x768 ![] bcast_S_S320x768 main_cst_2
  let main_v11 : IVec S320x768 1 := cmpf .olt main_v9 main_v10
  let main_c_3 : IVec S_ 1 := constantI S_ 1 1#1
  let main_v12 : IVec S_ 1 := (fun x v => Host.reduce IntOp.andi x v reducesTo_S320x768_S_d0_1 h_S_) main_v11 main_c_3
  let main_v13 : IVec S_ 1 := andi main_v8 main_v12
  let main_v14 : FVec F S320 .f32 := Host.absf main_arg3
  let main_cst_4 : FVec F S_ .f32 := constant S_ .f32 0x7F800000#32
  let main_v15 : FVec F S320 .f32 := broadcastInDim S320 ![] bcast_S_S320 main_cst_4
  let main_v16 : IVec S320 1 := cmpf .olt main_v14 main_v15
  fn_part1 (F := F) main_arg4 main_arg5 main_arg6 main_arg7 main_v13 main_v16
-- ==== Kernel.lean ====
abbrev S8x512x768 : Shape := ⟨3, ![8, 512, 768]⟩
abbrev S8x128x320 : Shape := ⟨3, ![8, 128, 320]⟩
abbrev S320x768 : Shape := ⟨2, ![320, 768]⟩
abbrev S320 : Shape := ⟨1, ![320]⟩
abbrev S320x320 : Shape := ⟨2, ![320, 320]⟩
abbrev S34x320 : Shape := ⟨2, ![34, 320]⟩
abbrev S34 : Shape := ⟨1, ![34]⟩
abbrev S8x512x128x34 : Shape := ⟨4, ![8, 512, 128, 34]⟩
abbrev S1x128x768 : Shape := ⟨3, ![1, 128, 768]⟩
abbrev S1x128x320 : Shape := ⟨3, ![1, 128, 320]⟩
abbrev S1x128x128x34 : Shape := ⟨4, ![1, 128, 128, 34]⟩
abbrev S128x768 : Shape := ⟨2, ![128, 768]⟩
abbrev S128x320 : Shape := ⟨2, ![128, 320]⟩
abbrev S320x128 : Shape := ⟨2, ![320, 128]⟩
abbrev S320x1 : Shape := ⟨2, ![320, 1]⟩
abbrev S320x128x1 : Shape := ⟨3, ![320, 128, 1]⟩
abbrev S320x1x128 : Shape := ⟨3, ![320, 1, 128]⟩
abbrev S320x128x128 : Shape := ⟨3, ![320, 128, 128]⟩
abbrev S320x16384 : Shape := ⟨2, ![320, 16384]⟩
abbrev S34x16384 : Shape := ⟨2, ![34, 16384]⟩
abbrev S34x1 : Shape := ⟨2, ![34, 1]⟩
abbrev S34x128x128 : Shape := ⟨3, ![34, 128, 128]⟩
abbrev S128x128x34 : Shape := ⟨3, ![128, 128, 34]⟩

abbrev nBuf : Space → Nat
  | .hbm => 12
  | .vmem => 12
  | .smem => 0
  | _ => 0

abbrev bufTy : (tb : Table) → Fin (tcTables nBuf tb) → BufTy
  | .hbm, ⟨0, _⟩ => ⟨S8x512x768, .f32⟩
  | .hbm, ⟨1, _⟩ => ⟨S8x128x320, .f32⟩
  | .hbm, ⟨2, _⟩ => ⟨S320x768, .f32⟩
  | .hbm, ⟨3, _⟩ => ⟨S320, .f32⟩
  | .hbm, ⟨4, _⟩ => ⟨S320x320, .f32⟩
  | .hbm, ⟨5, _⟩ => ⟨S320, .f32⟩
  | .hbm, ⟨6, _⟩ => ⟨S34x320, .f32⟩
  | .hbm, ⟨7, _⟩ => ⟨S34, .f32⟩
  | .hbm, ⟨8, _⟩ => ⟨S320x768, .bf16⟩
  | .hbm, ⟨9, _⟩ => ⟨S320x320, .bf16⟩
  | .hbm, ⟨10, _⟩ => ⟨S34x320, .bf16⟩
  | .hbm, ⟨11, _⟩ => ⟨S8x512x128x34, .f32⟩
  | .local _ .vmem, ⟨0, _⟩ => ⟨S1x128x768, .f32⟩
  | .local _ .vmem, ⟨1, _⟩ => ⟨S1x128x768, .f32⟩
  | .local _ .vmem, ⟨2, _⟩ => ⟨S1x128x320, .f32⟩
  | .local _ .vmem, ⟨3, _⟩ => ⟨S1x128x320, .f32⟩
  | .local _ .vmem, ⟨4, _⟩ => ⟨S320x768, .bf16⟩
  | .local _ .vmem, ⟨5, _⟩ => ⟨S320, .f32⟩
  | .local _ .vmem, ⟨6, _⟩ => ⟨S320x320, .bf16⟩
  | .local _ .vmem, ⟨7, _⟩ => ⟨S320, .f32⟩
  | .local _ .vmem, ⟨8, _⟩ => ⟨S34x320, .bf16⟩
  | .local _ .vmem, ⟨9, _⟩ => ⟨S34, .f32⟩
  | .local _ .vmem, ⟨10, _⟩ => ⟨S1x128x128x34, .f32⟩
  | .local _ .vmem, ⟨11, _⟩ => ⟨S1x128x128x34, .f32⟩
  | _, _ => ⟨S8x512x768, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | _, _ => false

abbrev semScoped : Fin 0 → Bool
  | ⟨_, h⟩ => absurd h (Nat.not_lt_zero _)

abbrev dmaSemScoped : Fin 12 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | _ => false

abbrev sig : RefSig :=
  ofTc nBuf bufTy 0 12 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_v0 : Ref sig .tc := ⟨.hbm, 8, rfl⟩
abbrev main_v1 : Ref sig .tc := ⟨.hbm, 9, rfl⟩
abbrev main_v2 : Ref sig .tc := ⟨.hbm, 10, rfl⟩
abbrev main_v3 : Ref sig .tc := ⟨.hbm, 11, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg3_0 : Ref sig .tc := ⟨.vmem, 5, rfl⟩
abbrev cc0_stg4_0 : Ref sig .tc := ⟨.vmem, 6, rfl⟩
abbrev cc0_stg5_0 : Ref sig .tc := ⟨.vmem, 7, rfl⟩
abbrev cc0_stg6_0 : Ref sig .tc := ⟨.vmem, 8, rfl⟩
abbrev cc0_stg7_0 : Ref sig .tc := ⟨.vmem, 9, rfl⟩
abbrev cc0_stg8_0 : Ref sig .tc := ⟨.vmem, 10, rfl⟩
abbrev cc0_stg8_1 : Ref sig .tc := ⟨.vmem, 11, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem3_0 : DmaSem sig := 5
abbrev cc0_sem4_0 : DmaSem sig := 6
abbrev cc0_sem5_0 : DmaSem sig := 7
abbrev cc0_sem6_0 : DmaSem sig := 8
abbrev cc0_sem7_0 : DmaSem sig := 9
abbrev cc0_sem8_0 : DmaSem sig := 10
abbrev cc0_sem8_1 : DmaSem sig := 11

abbrev nD : Nat := 1
abbrev τ : Topo := Topo.v7x

variable {F : FTy → Type} [FloatOps F]

abbrev grid0 : Pipeline.Grid := ⟨2, ![8, 4], ![false, false]⟩

def cc0_transform_0 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_1 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, c0_i32_0.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 1 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat]

def cc0_transform_4 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 1 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat]

def cc0_transform_6 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_7 (i : grid0.Coords) : Fin 1 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat]

def cc0_transform_8 (i : grid0.Coords) : Fin 4 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, arg1.toNat, c0_i32.toNat, c0_i32_0.toNat]

abbrev stage0_0 : Fin 2 → Memref sig .tc .vmem S1x128x768 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 2 → Memref sig .tc .vmem S1x128x320 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, false]

abbrev stage0_2 : Fin 1 → Memref sig .tc .vmem S320x768 .bf16 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false, false]

abbrev stage0_3 : Fin 1 → Memref sig .tc .vmem S320 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false, false]

abbrev stage0_4 : Fin 1 → Memref sig .tc .vmem S320x320 .bf16 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false, false]

abbrev stage0_5 : Fin 1 → Memref sig .tc .vmem S320 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false, false]

abbrev stage0_6 : Fin 1 → Memref sig .tc .vmem S34x320 .bf16 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false, false]

abbrev stage0_7 : Fin 1 → Memref sig .tc .vmem S34 .f32 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))
abbrev reads0_7 : Fin grid0.rank → Bool := ![false, false]

abbrev stage0_8 : Fin 2 → Memref sig .tc .vmem S1x128x128x34 .f32 := fun | 0 => Memref.whole cc0_stg8_0 | 1 => Memref.whole cc0_stg8_1 | ⟨_ + 2, h⟩ => absurd h (Nat.not_lt.2 (Nat.le_add_left _ _))
abbrev sem0_8 : Fin 2 → DmaSem sig := fun | 0 => cc0_sem8_0 | 1 => cc0_sem8_1 | ⟨_ + 2, h⟩ => absurd h (Nat.not_lt.2 (Nat.le_add_left _ _))
abbrev reads0_8 : Fin grid0.rank → Bool := ![true, true]

class Facts₀ : Prop where
  bitsLt_bf16_f32 : FTy.bits .bf16 < FTy.bits .f32
  inb_S1x128x768_S1x128x768_0_0_0 : ∀ a, (![0, 0, 0] : Fin 3 → Nat) a + S1x128x768.size a ≤ S1x128x768.size a
  h_S1x128x768 : 0 < S1x128x768.numel
  shapeCasts_S1x128x768_S128x768 : S1x128x768.ShapeCasts S128x768
  inb_S1x128x320_S1x128x320_0_0_0 : ∀ a, (![0, 0, 0] : Fin 3 → Nat) a + S1x128x320.size a ≤ S1x128x320.size a
  h_S1x128x320 : 0 < S1x128x320.numel
  shapeCasts_S1x128x320_S128x320 : S1x128x320.ShapeCasts S128x320
  inb_S320x768_S320x768_0_0 : ∀ a, (![0, 0] : Fin 2 → Nat) a + S320x768.size a ≤ S320x768.size a
  h_S320x768 : 0 < S320x768.numel
  shapeCasts_S320x768_S320x768 : S320x768.ShapeCasts S320x768
  inb_S320_S320_0 : ∀ a, (![0] : Fin 1 → Nat) a + S320.size a ≤ S320.size a
  h_S320 : 0 < S320.numel
  inb_S320x320_S320x320_0_0 : ∀ a, (![0, 0] : Fin 2 → Nat) a + S320x320.size a ≤ S320x320.size a
  h_S320x320 : 0 < S320x320.numel
  shapeCasts_S320x320_S320x320 : S320x320.ShapeCasts S320x320
  inb_S34x320_S34x320_0_0 : ∀ a, (![0, 0] : Fin 2 → Nat) a + S34x320.size a ≤ S34x320.size a
  h_S34x320 : 0 < S34x320.numel
  shapeCasts_S34x320_S34x320 : S34x320.ShapeCasts S34x320
  inb_S34_S34_0 : ∀ a, (![0] : Fin 1 → Nat) a + S34.size a ≤ S34.size a
  h_S34 : 0 < S34.numel
  shapeCasts_S320_S320x1 : S320.ShapeCasts S320x1
  broadcasts_S320x1_S320x128 : S320x1.Broadcasts S320x128
  shapeCasts_S320x128_S320x128x1 : S320x128.ShapeCasts S320x128x1
  shapeCasts_S320x128_S320x1x128 : S320x128.ShapeCasts S320x1x128
  broadcasts_S320x128x1_S320x128x128 : S320x128x1.Broadcasts S320x128x128
  broadcasts_S320x1x128_S320x128x128 : S320x1x128.Broadcasts S320x128x128
  shapeCasts_S320x128x128_S320x16384 : S320x128x128.ShapeCasts S320x16384
  shapeCasts_S34_S34x1 : S34.ShapeCasts S34x1
  broadcasts_S34x1_S34x16384 : S34x1.Broadcasts S34x16384
  shapeCasts_S34x16384_S34x128x128 : S34x16384.ShapeCasts S34x128x128
  transposes_S34x128x128_p1_2_0_S128x128x34 : S34x128x128.Transposes [1, 2, 0] S128x128x34
  inb_S1x128x128x34_S1x128x128x34_0_0_0_0 : ∀ a, (![0, 0, 0, 0] : Fin 4 → Nat) a + S1x128x128x34.size a ≤ S1x128x128x34.size a
  h_S1x128x128x34 : 0 < S1x128x128x34.numel
  shapeCasts_S1x128x128x34_S128x128x34 : S1x128x128x34.ShapeCasts S128x128x34
  shapeCasts_S128x128x34_S1x128x128x34 : S128x128x34.ShapeCasts S1x128x128x34
  dot_S320x768_S128x768_S320x128_1_1_0_0_n_n_wf : DotDims.WF S320x768 S128x768 S320x128 [1] [1] [0] [0] [] []
  dot_S320x320_S128x320_S320x128_1_1_0_0_n_n_wf : DotDims.WF S320x320 S128x320 S320x128 [1] [1] [0] [0] [] []
  dot_S34x320_S320x16384_S34x16384_1_0_0_1_n_n_wf : DotDims.WF S34x320 S320x16384 S34x16384 [1] [0] [0] [1] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S1x128x768.size a ≤ S8x512x768.size a
  hwx0_0 : ∀ i : grid0.Coords, EltTy.bits .f32 = 32 ∨ (Rect.block (s := S8x512x768) S1x128x768.size (cc0_transform_0 i) (hinb0_0 i)).WholeWords (EltTy.packing .f32)
  hstage0_1 : ∀ j, (stage0_1 j).IsWhole
  nbuf0_1 : grid0.bufCount reads0_1 false = 2
  hreads0_1 : ∀ i i' : grid0.Coords, (∀ a, reads0_1 a = true → i a = i' a) → cc0_transform_1 i = cc0_transform_1 i'
  hinb0_1 : ∀ (i : grid0.Coords) a, (cc0_transform_1 i a + 1) * S1x128x320.size a ≤ S8x128x320.size a
  hwx0_1 : ∀ i : grid0.Coords, EltTy.bits .f32 = 32 ∨ (Rect.block (s := S8x128x320) S1x128x320.size (cc0_transform_1 i) (hinb0_1 i)).WholeWords (EltTy.packing .f32)
  hstage0_2 : ∀ j, (stage0_2 j).IsWhole
  nbuf0_2 : grid0.bufCount reads0_2 true = 1
  hreads0_2 : ∀ i i' : grid0.Coords, (∀ a, reads0_2 a = true → i a = i' a) → cc0_transform_2 i = cc0_transform_2 i'
  hinb0_2 : ∀ (i : grid0.Coords) a, (cc0_transform_2 i a + 1) * S320x768.size a ≤ S320x768.size a
  hwx0_2 : ∀ i : grid0.Coords, EltTy.bits .bf16 = 32 ∨ (Rect.block (s := S320x768) S320x768.size (cc0_transform_2 i) (hinb0_2 i)).WholeWords (EltTy.packing .bf16)
  hstage0_3 : ∀ j, (stage0_3 j).IsWhole
  nbuf0_3 : grid0.bufCount reads0_3 true = 1
  hreads0_3 : ∀ i i' : grid0.Coords, (∀ a, reads0_3 a = true → i a = i' a) → cc0_transform_3 i = cc0_transform_3 i'
  hinb0_3 : ∀ (i : grid0.Coords) a, (cc0_transform_3 i a + 1) * S320.size a ≤ S320.size a
  hwx0_3 : ∀ i : grid0.Coords, EltTy.bits .f32 = 32 ∨ (Rect.block (s := S320) S320.size (cc0_transform_3 i) (hinb0_3 i)).WholeWords (EltTy.packing .f32)
  hstage0_4 : ∀ j, (stage0_4 j).IsWhole
  nbuf0_4 : grid0.bufCount reads0_4 true = 1
  hreads0_4 : ∀ i i' : grid0.Coords, (∀ a, reads0_4 a = true → i a = i' a) → cc0_transform_4 i = cc0_transform_4 i'
  hinb0_4 : ∀ (i : grid0.Coords) a, (cc0_transform_4 i a + 1) * S320x320.size a ≤ S320x320.size a
  hwx0_4 : ∀ i : grid0.Coords, EltTy.bits .bf16 = 32 ∨ (Rect.block (s := S320x320) S320x320.size (cc0_transform_4 i) (hinb0_4 i)).WholeWords (EltTy.packing .bf16)
  hstage0_5 : ∀ j, (stage0_5 j).IsWhole
  nbuf0_5 : grid0.bufCount reads0_5 true = 1
  hreads0_5 : ∀ i i' : grid0.Coords, (∀ a, reads0_5 a = true → i a = i' a) → cc0_transform_5 i = cc0_transform_5 i'
  hinb0_5 : ∀ (i : grid0.Coords) a, (cc0_transform_5 i a + 1) * S320.size a ≤ S320.size a
  hwx0_5 : ∀ i : grid0.Coords, EltTy.bits .f32 = 32 ∨ (Rect.block (s := S320) S320.size (cc0_transform_5 i) (hinb0_5 i)).WholeWords (EltTy.packing .f32)
  hstage0_6 : ∀ j, (stage0_6 j).IsWhole
  nbuf0_6 : grid0.bufCount reads0_6 true = 1
  hreads0_6 : ∀ i i' : grid0.Coords, (∀ a, reads0_6 a = true → i a = i' a) → cc0_transform_6 i = cc0_transform_6 i'
  hinb0_6 : ∀ (i : grid0.Coords) a, (cc0_transform_6 i a + 1) * S34x320.size a ≤ S34x320.size a
  hwx0_6 : ∀ i : grid0.Coords, EltTy.bits .bf16 = 32 ∨ (Rect.block (s := S34x320) S34x320.size (cc0_transform_6 i) (hinb0_6 i)).WholeWords (EltTy.packing .bf16)
  hstage0_7 : ∀ j, (stage0_7 j).IsWhole
  nbuf0_7 : grid0.bufCount reads0_7 true = 1
  hreads0_7 : ∀ i i' : grid0.Coords, (∀ a, reads0_7 a = true → i a = i' a) → cc0_transform_7 i = cc0_transform_7 i'
  hinb0_7 : ∀ (i : grid0.Coords) a, (cc0_transform_7 i a + 1) * S34.size a ≤ S34.size a
  hwx0_7 : ∀ i : grid0.Coords, EltTy.bits .f32 = 32 ∨ (Rect.block (s := S34) S34.size (cc0_transform_7 i) (hinb0_7 i)).WholeWords (EltTy.packing .f32)
  hstage0_8 : ∀ j, (stage0_8 j).IsWhole
  nbuf0_8 : grid0.bufCount reads0_8 false = 2
  hreads0_8 : ∀ i i' : grid0.Coords, (∀ a, reads0_8 a = true → i a = i' a) → cc0_transform_8 i = cc0_transform_8 i'
  hinb0_8 : ∀ (i : grid0.Coords) a, (cc0_transform_8 i a + 1) * S1x128x128x34.size a ≤ S8x512x128x34.size a
  hwx0_8 : ∀ i : grid0.Coords, EltTy.bits .f32 = 32 ∨ (Rect.block (s := S8x512x128x34) S1x128x128x34.size (cc0_transform_8 i) (hinb0_8 i)).WholeWords (EltTy.packing .f32)

variable [Facts₀]

def dot_S320x768_S128x768_S320x128_1_1_0_0_n_n : DotDims S320x768 S128x768 S320x128 where
  lhsContracting := [1]
  rhsContracting := [1]
  lhsNonContracting := [0]
  rhsNonContracting := [0]
  lhsBatch := []
  rhsBatch := []
  wf := dot_S320x768_S128x768_S320x128_1_1_0_0_n_n_wf
def dot_S320x320_S128x320_S320x128_1_1_0_0_n_n : DotDims S320x320 S128x320 S320x128 where
  lhsContracting := [1]
  rhsContracting := [1]
  lhsNonContracting := [0]
  rhsNonContracting := [0]
  lhsBatch := []
  rhsBatch := []
  wf := dot_S320x320_S128x320_S320x128_1_1_0_0_n_n_wf
def dot_S34x320_S320x16384_S34x16384_1_0_0_1_n_n : DotDims S34x320 S320x16384 S34x16384 where
  lhsContracting := [1]
  rhsContracting := [0]
  lhsNonContracting := [0]
  rhsNonContracting := [1]
  lhsBatch := []
  rhsBatch := []
  wf := dot_S34x320_S320x16384_S34x16384_1_0_0_1_n_n_wf

abbrev win0_0 : Pipeline.Window sig grid0 :=
  Pipeline.Window.ofSpec (Memref.whole main_arg0) S1x128x768.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_arg1) S1x128x320.size cc0_transform_1 reads0_1 false false 2 stage0_1 sem0_1
    hrank0 hreads0_1 hinb0_1 nbuf0_1 (Memref.isWhole_whole _) hwx0_1 hstage0_1

abbrev win0_2 : Pipeline.Window sig grid0 :=
  Pipeline.Window.ofSpec (Memref.whole main_v0) S320x768.size cc0_transform_2 reads0_2 false true 1 stage0_2 sem0_2
    hrank0 hreads0_2 hinb0_2 nbuf0_2 (Memref.isWhole_whole _) hwx0_2 hstage0_2

abbrev win0_3 : Pipeline.Window sig grid0 :=
  Pipeline.Window.ofSpec (Memref.whole main_arg3) S320.size cc0_transform_3 reads0_3 false true 1 stage0_3 sem0_3
    hrank0 hreads0_3 hinb0_3 nbuf0_3 (Memref.isWhole_whole _) hwx0_3 hstage0_3

abbrev win0_4 : Pipeline.Window sig grid0 :=
  Pipeline.Window.ofSpec (Memref.whole main_v1) S320x320.size cc0_transform_4 reads0_4 false true 1 stage0_4 sem0_4
    hrank0 hreads0_4 hinb0_4 nbuf0_4 (Memref.isWhole_whole _) hwx0_4 hstage0_4

abbrev win0_5 : Pipeline.Window sig grid0 :=
  Pipeline.Window.ofSpec (Memref.whole main_arg5) S320.size cc0_transform_5 reads0_5 false true 1 stage0_5 sem0_5
    hrank0 hreads0_5 hinb0_5 nbuf0_5 (Memref.isWhole_whole _) hwx0_5 hstage0_5

abbrev win0_6 : Pipeline.Window sig grid0 :=
  Pipeline.Window.ofSpec (Memref.whole main_v2) S34x320.size cc0_transform_6 reads0_6 false true 1 stage0_6 sem0_6
    hrank0 hreads0_6 hinb0_6 nbuf0_6 (Memref.isWhole_whole _) hwx0_6 hstage0_6

abbrev win0_7 : Pipeline.Window sig grid0 :=
  Pipeline.Window.ofSpec (Memref.whole main_arg7) S34.size cc0_transform_7 reads0_7 false true 1 stage0_7 sem0_7
    hrank0 hreads0_7 hinb0_7 nbuf0_7 (Memref.isWhole_whole _) hwx0_7 hstage0_7

abbrev win0_8 : Pipeline.Window sig grid0 :=
  Pipeline.Window.ofSpec (Memref.whole main_v3) S1x128x128x34.size cc0_transform_8 reads0_8 true false 2 stage0_8 sem0_8
    hrank0 hreads0_8 hinb0_8 nbuf0_8 (Memref.isWhole_whole _) hwx0_8 hstage0_8

abbrev win0 : Fin 9 → Pipeline.Window sig grid0 := fun | 0 => win0_0 | 1 => win0_1 | 2 => win0_2 | 3 => win0_3 | 4 => win0_4 | 5 => win0_5 | 6 => win0_6 | 7 => win0_7 | 8 => win0_8 | ⟨_ + 9, h⟩ => absurd h (Nat.not_lt.2 (Nat.le_add_left _ _))
abbrev spec0 : Fin 9 → Pipeline.WinSpec sig grid0.rank := fun w => (win0 w).toWinSpec

class Facts : Prop extends Facts₀ where

variable [Facts]
-- ==== ReferenceIdeal.lean ====
abbrev S8x512x768 : Shape := ⟨3, ![8, 512, 768]⟩
abbrev S8x128x320 : Shape := ⟨3, ![8, 128, 320]⟩
abbrev S320x768 : Shape := ⟨2, ![320, 768]⟩
abbrev S320 : Shape := ⟨1, ![320]⟩
abbrev S320x320 : Shape := ⟨2, ![320, 320]⟩
abbrev S34x320 : Shape := ⟨2, ![34, 320]⟩
abbrev S34 : Shape := ⟨1, ![34]⟩
abbrev S8x512x320 : Shape := ⟨3, ![8, 512, 320]⟩
abbrev S1x1x320 : Shape := ⟨3, ![1, 1, 320]⟩
abbrev S8x512x1x320 : Shape := ⟨4, ![8, 512, 1, 320]⟩
abbrev S8x1x128x320 : Shape := ⟨4, ![8, 1, 128, 320]⟩
abbrev S8x512x128x320 : Shape := ⟨4, ![8, 512, 128, 320]⟩
abbrev S_ : Shape := ⟨0, ![]⟩
abbrev S8x512x128x34 : Shape := ⟨4, ![8, 512, 128, 34]⟩
abbrev S1x1x1x34 : Shape := ⟨4, ![1, 1, 1, 34]⟩

abbrev nBuf : Space → Nat
  | .hbm => 28
  | .vmem => 0
  | .smem => 0
  | _ => 0

abbrev bufTy : (tb : Table) → Fin (tcTables nBuf tb) → BufTy
  | .hbm, ⟨0, _⟩ => ⟨S8x512x768, .f32⟩
  | .hbm, ⟨1, _⟩ => ⟨S8x128x320, .f32⟩
  | .hbm, ⟨2, _⟩ => ⟨S320x768, .f32⟩
  | .hbm, ⟨3, _⟩ => ⟨S320, .f32⟩
  | .hbm, ⟨4, _⟩ => ⟨S320x320, .f32⟩
  | .hbm, ⟨5, _⟩ => ⟨S320, .f32⟩
  | .hbm, ⟨6, _⟩ => ⟨S34x320, .f32⟩
  | .hbm, ⟨7, _⟩ => ⟨S34, .f32⟩
  | .hbm, ⟨8, _⟩ => ⟨S8x512x320, .f32⟩
  | .hbm, ⟨9, _⟩ => ⟨S1x1x320, .f32⟩
  | .hbm, ⟨10, _⟩ => ⟨S8x512x320, .f32⟩
  | .hbm, ⟨11, _⟩ => ⟨S8x512x320, .f32⟩
  | .hbm, ⟨12, _⟩ => ⟨S8x128x320, .f32⟩
  | .hbm, ⟨13, _⟩ => ⟨S1x1x320, .f32⟩
  | .hbm, ⟨14, _⟩ => ⟨S8x128x320, .f32⟩
  | .hbm, ⟨15, _⟩ => ⟨S8x128x320, .f32⟩
  | .hbm, ⟨16, _⟩ => ⟨S8x512x1x320, .f32⟩
  | .hbm, ⟨17, _⟩ => ⟨S8x1x128x320, .f32⟩
  | .hbm, ⟨18, _⟩ => ⟨S8x512x128x320, .f32⟩
  | .hbm, ⟨19, _⟩ => ⟨S8x512x128x320, .f32⟩
  | .hbm, ⟨20, _⟩ => ⟨S8x512x128x320, .f32⟩
  | .hbm, ⟨21, _⟩ => ⟨S_, .f32⟩
  | .hbm, ⟨22, _⟩ => ⟨S8x512x128x320, .f32⟩
  | .hbm, ⟨23, _⟩ => ⟨S8x512x128x320, .f32⟩
  | .hbm, ⟨24, _⟩ => ⟨S8x512x128x34, .f32⟩
  | .hbm, ⟨25, _⟩ => ⟨S1x1x1x34, .f32⟩
  | .hbm, ⟨26, _⟩ => ⟨S8x512x128x34, .f32⟩
  | .hbm, ⟨27, _⟩ => ⟨S8x512x128x34, .f32⟩
  | _, _ => ⟨S8x512x768, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_v0 : Ref sig .tc := ⟨.hbm, 8, rfl⟩
abbrev main_v1 : Ref sig .tc := ⟨.hbm, 9, rfl⟩
abbrev main_v2 : Ref sig .tc := ⟨.hbm, 10, rfl⟩
abbrev main_v3 : Ref sig .tc := ⟨.hbm, 11, rfl⟩
abbrev main_v4 : Ref sig .tc := ⟨.hbm, 12, rfl⟩
abbrev main_v5 : Ref sig .tc := ⟨.hbm, 13, rfl⟩
abbrev main_v6 : Ref sig .tc := ⟨.hbm, 14, rfl⟩
abbrev main_v7 : Ref sig .tc := ⟨.hbm, 15, rfl⟩
abbrev main_v8 : Ref sig .tc := ⟨.hbm, 16, rfl⟩
abbrev main_v9 : Ref sig .tc := ⟨.hbm, 17, rfl⟩
abbrev main_v10 : Ref sig .tc := ⟨.hbm, 18, rfl⟩
abbrev main_v11 : Ref sig .tc := ⟨.hbm, 19, rfl⟩
abbrev main_v12 : Ref sig .tc := ⟨.hbm, 20, rfl⟩
abbrev main_call0_cst : Ref sig .tc := ⟨.hbm, 21, rfl⟩
abbrev main_call0_v0 : Ref sig .tc := ⟨.hbm, 22, rfl⟩
abbrev main_v13 : Ref sig .tc := ⟨.hbm, 23, rfl⟩
abbrev main_v14 : Ref sig .tc := ⟨.hbm, 24, rfl⟩
abbrev main_v15 : Ref sig .tc := ⟨.hbm, 25, rfl⟩
abbrev main_v16 : Ref sig .tc := ⟨.hbm, 26, rfl⟩
abbrev main_v17 : Ref sig .tc := ⟨.hbm, 27, rfl⟩

abbrev nD : Nat := 1
abbrev τ : Topo := Topo.v7x

variable {F : FTy → Type} [FloatOps F]

class Facts₀ : Prop where
  bcast_S320_S1x1x320_2 : S320.BroadcastsInDim S1x1x320 (![2] : Fin 1 → Fin S1x1x320.rank)
  bcast_S1x1x320_S8x512x320_0_1_2 : S1x1x320.BroadcastsInDim S8x512x320 (![0, 1, 2] : Fin 3 → Fin S8x512x320.rank)
  bcast_S1x1x320_S8x128x320_0_1_2 : S1x1x320.BroadcastsInDim S8x128x320 (![0, 1, 2] : Fin 3 → Fin S8x128x320.rank)
  bcast_S8x512x320_S8x512x1x320_0_1_3 : S8x512x320.BroadcastsInDim S8x512x1x320 (![0, 1, 3] : Fin 3 → Fin S8x512x1x320.rank)
  bcast_S8x128x320_S8x1x128x320_0_2_3 : S8x128x320.BroadcastsInDim S8x1x128x320 (![0, 2, 3] : Fin 3 → Fin S8x1x128x320.rank)
  bcast_S8x512x1x320_S8x512x128x320_0_1_2_3 : S8x512x1x320.BroadcastsInDim S8x512x128x320 (![0, 1, 2, 3] : Fin 4 → Fin S8x512x128x320.rank)
  bcast_S8x1x128x320_S8x512x128x320_0_1_2_3 : S8x1x128x320.BroadcastsInDim S8x512x128x320 (![0, 1, 2, 3] : Fin 4 → Fin S8x512x128x320.rank)
  bcast_S_S8x512x128x320 : S_.BroadcastsInDim S8x512x128x320 (![] : Fin 0 → Fin S8x512x128x320.rank)
  bcast_S34_S1x1x1x34_3 : S34.BroadcastsInDim S1x1x1x34 (![3] : Fin 1 → Fin S1x1x1x34.rank)
  bcast_S1x1x1x34_S8x512x128x34_0_1_2_3 : S1x1x1x34.BroadcastsInDim S8x512x128x34 (![0, 1, 2, 3] : Fin 4 → Fin S8x512x128x34.rank)
  dot_S8x512x768_S320x768_S8x512x320_2_1_01_0_n_n_wf : DotDims.WF S8x512x768 S320x768 S8x512x320 [2] [1] [0, 1] [0] [] []
  dot_S8x128x320_S320x320_S8x128x320_2_1_01_0_n_n_wf : DotDims.WF S8x128x320 S320x320 S8x128x320 [2] [1] [0, 1] [0] [] []
  dot_S8x512x128x320_S34x320_S8x512x128x34_3_1_012_0_n_n_wf : DotDims.WF S8x512x128x320 S34x320 S8x512x128x34 [3] [1] [0, 1, 2] [0] [] []

variable [Facts₀]

def dot_S8x512x768_S320x768_S8x512x320_2_1_01_0_n_n : DotDims S8x512x768 S320x768 S8x512x320 where
  lhsContracting := [2]
  rhsContracting := [1]
  lhsNonContracting := [0, 1]
  rhsNonContracting := [0]
  lhsBatch := []
  rhsBatch := []
  wf := dot_S8x512x768_S320x768_S8x512x320_2_1_01_0_n_n_wf
def dot_S8x128x320_S320x320_S8x128x320_2_1_01_0_n_n : DotDims S8x128x320 S320x320 S8x128x320 where
  lhsContracting := [2]
  rhsContracting := [1]
  lhsNonContracting := [0, 1]
  rhsNonContracting := [0]
  lhsBatch := []
  rhsBatch := []
  wf := dot_S8x128x320_S320x320_S8x128x320_2_1_01_0_n_n_wf
def dot_S8x512x128x320_S34x320_S8x512x128x34_3_1_012_0_n_n : DotDims S8x512x128x320 S34x320 S8x512x128x34 where
  lhsContracting := [3]
  rhsContracting := [1]
  lhsNonContracting := [0, 1, 2]
  rhsNonContracting := [0]
  lhsBatch := []
  rhsBatch := []
  wf := dot_S8x512x128x320_S34x320_S8x512x128x34_3_1_012_0_n_n_wf

class Facts : Prop extends Facts₀ where

variable [Facts]
-- ==== Proof.JointSpec.lean ====
/-
  The function both programs compute, stated once over the eight argument arrays and read index by index on the
  extended reals.

  For a batch element `b`, an encoder frame `t`, a predictor step `u` and a hidden unit `h`, the joint activation is

      hidden b t u h = max ( (Σ_e enc[b,t,e] · ew[h,e] + eb[h]) + (Σ_p pred[b,u,p] · pw[h,p] + pb[h]) ) 0,

  the two affine projections of the encoder frame and of the predictor step, added and rectified; and the logit of
  class `c` is the affine read-out of the 320 hidden units,

      logits[b,t,u,c] = Σ_h hidden b t u h · ow[c,h] + ob[c].

  The zero of the rectifier is kept as the float word both programs print for it; it is never evaluated.
-/
import Idealize.ShloMosaic.PureOps.Ideal
import Idealize.ShloMosaic.Lib.ValueIdx

noncomputable section

open scoped BigOperators

namespace Cert.JointSpec

open Idealize.ShloMosaic Idealize.ShloMosaic.ValueIdx

/-- The rectified sum of the two projections at hidden unit `h`: the encoder frame `(b, t)` through `ew`, `eb` and the
    predictor step `(b, u)` through `pw`, `pb`. -/
def hidden (enc : (⟨3, ![8, 512, 768]⟩ : Shape).Idx → EReal) (pred : (⟨3, ![8, 128, 320]⟩ : Shape).Idx → EReal)
    (ew : (⟨2, ![320, 768]⟩ : Shape).Idx → EReal) (eb : (⟨1, ![320]⟩ : Shape).Idx → EReal)
    (pw : (⟨2, ![320, 320]⟩ : Shape).Idx → EReal) (pb : (⟨1, ![320]⟩ : Shape).Idx → EReal)
    (b : Fin 8) (t : Fin 512) (u : Fin 128) (h : Fin 320) : EReal :=
  max ((∑ e : Fin 768, enc (ix3 b t e) * ew (ix2 h e) + eb (ix1 h))
      + (∑ p : Fin 320, pred (ix3 b u p) * pw (ix2 h p) + pb (ix1 h))) (Ideal.ofBits .f32 0x00000000#32)

/-- The logit of class `c` at `(b, t, u)`: the read-out `ow`, `ob` of the hidden units. -/
def logitAt (enc : (⟨3, ![8, 512, 768]⟩ : Shape).Idx → EReal) (pred : (⟨3, ![8, 128, 320]⟩ : Shape).Idx → EReal)
    (ew : (⟨2, ![320, 768]⟩ : Shape).Idx → EReal) (eb : (⟨1, ![320]⟩ : Shape).Idx → EReal)
    (pw : (⟨2, ![320, 320]⟩ : Shape).Idx → EReal) (pb : (⟨1, ![320]⟩ : Shape).Idx → EReal)
    (ow : (⟨2, ![34, 320]⟩ : Shape).Idx → EReal) (ob : (⟨1, ![34]⟩ : Shape).Idx → EReal)
    (b : Fin 8) (t : Fin 512) (u : Fin 128) (c : Fin 34) : EReal :=
  ∑ h : Fin 320, hidden enc pred ew eb pw pb b t u h * ow (ix2 c h) + ob (ix1 c)

/-- The whole result array, `[8, 512, 128, 34]`, as one function of the argument arrays. -/
def logits (enc : (⟨3, ![8, 512, 768]⟩ : Shape).Idx → EReal) (pred : (⟨3, ![8, 128, 320]⟩ : Shape).Idx → EReal)
    (ew : (⟨2, ![320, 768]⟩ : Shape).Idx → EReal) (eb : (⟨1, ![320]⟩ : Shape).Idx → EReal)
    (pw : (⟨2, ![320, 320]⟩ : Shape).Idx → EReal) (pb : (⟨1, ![320]⟩ : Shape).Idx → EReal)
    (ow : (⟨2, ![34, 320]⟩ : Shape).Idx → EReal) (ob : (⟨1, ![34]⟩ : Shape).Idx → EReal) :
    (⟨4, ![8, 512, 128, 34]⟩ : Shape).Idx → EReal :=
  fun i => logitAt enc pred ew eb pw pb ow ob (i 0) (i 1) (i 2) (i 3)

/-- At an index given by its coordinates the array is the logit there. -/
theorem logits_ix4 (enc : (⟨3, ![8, 512, 768]⟩ : Shape).Idx → EReal) (pred : (⟨3, ![8, 128, 320]⟩ : Shape).Idx → EReal)
    (ew : (⟨2, ![320, 768]⟩ : Shape).Idx → EReal) (eb : (⟨1, ![320]⟩ : Shape).Idx → EReal)
    (pw : (⟨2, ![320, 320]⟩ : Shape).Idx → EReal) (pb : (⟨1, ![320]⟩ : Shape).Idx → EReal)
    (ow : (⟨2, ![34, 320]⟩ : Shape).Idx → EReal) (ob : (⟨1, ![34]⟩ : Shape).Idx → EReal)
    (b : Fin 8) (t : Fin 512) (u : Fin 128) (c : Fin 34) :
    logits enc pred ew eb pw pb ow ob (ix4 b t u c) = logitAt enc pred ew eb pw pb ow ob b t u c := rfl

end Cert.JointSpec

end
-- ==== Proof.ReferenceLogits.lean ====
/-
  The reference's result array is `JointSpec.logits` of its arguments.

  Read one operation at a time, the reference's last stage at the index `(b, t, u, c)` is the bias `ob[c]` added to the
  contraction over `h` of the rectified tensor with `ow[c, h]`; the rectified tensor at `(b, t, u, h)` is the maximum with
  zero of the sum of the two broadcast projections, each a contraction with its weight row `h` plus its bias. Every
  broadcast only forgets coordinates, so the composed index maps are the coordinate tuples the specification is written
  with, and the two sides are then the same expression.
-/
import proofs.«170953_j52149492908815_2_alg».proof.Proof.Gen.ReferenceIdeal.Read
import proofs.«170953_j52149492908815_2_alg».proof.Proof.JointSpec

noncomputable section

open scoped BigOperators

namespace Cert.ReferenceIdeal.Logits

open Cert.ReferenceIdeal Cert.ReferenceIdeal.Read Cert.JointSpec Idealize.ShloMosaic Idealize.ShloMosaic.ValueIdx

/-- The rectified tensor at `(b, t, u, h)` is the specification's hidden activation. -/
theorem relu_apply (x0 : (⟨S8x512x768, .f32⟩ : BufTy).Contents (Elt Ideal)) (x1 : (⟨S8x128x320, .f32⟩ : BufTy).Contents (Elt Ideal))
    (x2 : (⟨S320x768, .f32⟩ : BufTy).Contents (Elt Ideal)) (x3 : (⟨S320, .f32⟩ : BufTy).Contents (Elt Ideal))
    (x4 : (⟨S320x320, .f32⟩ : BufTy).Contents (Elt Ideal)) (x5 : (⟨S320, .f32⟩ : BufTy).Contents (Elt Ideal))
    (b : Fin 8) (t : Fin 512) (u : Fin 128) (h : Fin 320) :
    val_main_v13 (F := Ideal) x0 x1 x2 x3 x4 x5 (ix4 b t u h) = hidden x0 x1 x2 x3 x4 x5 b t u h := by
  rw [val_main_v13_apply, val_main_v12_apply, val_main_v10_apply, val_main_v8_apply, val_main_v3_apply, val_main_v0_apply,
    val_main_v2_apply, val_main_v1_apply, val_main_v11_apply, val_main_v9_apply, val_main_v7_apply, val_main_v4_apply,
    val_main_v6_apply, val_main_v5_apply, val_main_call0_v0_apply, val_main_call0_cst_apply]
  have e0 : ∀ e : Fin 768, lidx_main_v0 (idx_main_v8 (idx_main_v10 (ix4 b t u h))) e = ix3 b t e := fun e =>
    funext fun a => by match a with | ⟨0, _⟩ => rfl | ⟨1, _⟩ => rfl | ⟨2, _⟩ => rfl
  have e1 : ∀ e : Fin 768, ridx_main_v0 (idx_main_v8 (idx_main_v10 (ix4 b t u h))) e = ix2 h e := fun e =>
    funext fun a => by match a with | ⟨0, _⟩ => rfl | ⟨1, _⟩ => rfl
  have e2 : idx_main_v1 (idx_main_v2 (idx_main_v8 (idx_main_v10 (ix4 b t u h)))) = ix1 h :=
    funext fun a => by match a with | ⟨0, _⟩ => rfl
  have e3 : ∀ p : Fin 320, lidx_main_v4 (idx_main_v9 (idx_main_v11 (ix4 b t u h))) p = ix3 b u p := fun p =>
    funext fun a => by match a with | ⟨0, _⟩ => rfl | ⟨1, _⟩ => rfl | ⟨2, _⟩ => rfl
  have e4 : ∀ p : Fin 320, ridx_main_v4 (idx_main_v9 (idx_main_v11 (ix4 b t u h))) p = ix2 h p := fun p =>
    funext fun a => by match a with | ⟨0, _⟩ => rfl | ⟨1, _⟩ => rfl
  have e5 : idx_main_v5 (idx_main_v6 (idx_main_v9 (idx_main_v11 (ix4 b t u h)))) = ix1 h :=
    funext fun a => by match a with | ⟨0, _⟩ => rfl
  simp only [e0, e1, e2, e3, e4, e5]
  rfl

/-- The reference's last stage, as a function of the eight arguments, is the specification. -/
theorem val_eq (x0 : (⟨S8x512x768, .f32⟩ : BufTy).Contents (Elt Ideal)) (x1 : (⟨S8x128x320, .f32⟩ : BufTy).Contents (Elt Ideal))
    (x2 : (⟨S320x768, .f32⟩ : BufTy).Contents (Elt Ideal)) (x3 : (⟨S320, .f32⟩ : BufTy).Contents (Elt Ideal))
    (x4 : (⟨S320x320, .f32⟩ : BufTy).Contents (Elt Ideal)) (x5 : (⟨S320, .f32⟩ : BufTy).Contents (Elt Ideal))
    (x6 : (⟨S34x320, .f32⟩ : BufTy).Contents (Elt Ideal)) (x7 : (⟨S34, .f32⟩ : BufTy).Contents (Elt Ideal)) :
    val_main_v17 (F := Ideal) x0 x1 x2 x3 x4 x5 x6 x7 = logits x0 x1 x2 x3 x4 x5 x6 x7 := by
  funext i
  obtain ⟨b, t, u, c, rfl⟩ : ∃ (b : Fin 8) (t : Fin 512) (u : Fin 128) (c : Fin 34), i = ix4 b t u c :=
    ⟨i 0, i 1, i 2, i 3, eq_ix4 i⟩
  rw [logits_ix4, val_main_v17_apply, val_main_v14_apply, val_main_v16_apply, val_main_v15_apply]
  have e6 : ∀ h : Fin 320, lidx_main_v14 (ix4 b t u c) h = ix4 b t u h := fun h =>
    funext fun a => by match a with | ⟨0, _⟩ => rfl | ⟨1, _⟩ => rfl | ⟨2, _⟩ => rfl | ⟨3, _⟩ => rfl
  have e7 : ∀ h : Fin 320, ridx_main_v14 (ix4 b t u c) h = ix2 c h := fun h =>
    funext fun a => by match a with | ⟨0, _⟩ => rfl | ⟨1, _⟩ => rfl
  have e8 : idx_main_v15 (idx_main_v16 (ix4 b t u c)) = ix1 c :=
    funext fun a => by match a with | ⟨0, _⟩ => rfl
  simp only [e6, e7, e8, relu_apply]
  rfl

end Cert.ReferenceIdeal.Logits

end
-- ==== Proof.BlockLogits.lean ====
/-
  One block of the kernel's output, read at an index.

  At a grid point the body holds an encoder tile `enc` of 128 frames, the predictor block `pred` of 128 steps, and
  the six parameter arrays whole. It forms the two projections TRANSPOSED, hidden unit first,

      f[h, t] = Σ_e ew[h, e] · enc[t, e] + eb[h],        g[h, u] = Σ_p pw[h, p] · pred[u, p] + pb[h],

  the rectified sum `J[h, t, u] = max (f[h, t] + g[h, u]) 0`, flattens `(t, u)` to one column index `n = 128 t + u`,
  contracts `ow[c, h] · J[h, n]` over `h`, adds `ob[c]`, and finally moves the class axis last. Each step below reads
  one of these stages at explicit coordinates: a contraction into a zero accumulator is the plain sum, a change of float
  format is the identity, a flattening or a unit axis only renames the index (same row-major position), a broadcast
  forgets the coordinate it adds, and the transposition permutes coordinates. Products are commuted on the way so
  that the result is written the way the specification is: data times weight.
-/
import proofs.«170953_j52149492908815_2_alg».proof.Proof.Gen.KernelIdeal.Skeleton
import Idealize.ShloMosaic.Lib.Pipeline.Value
import Idealize.ShloMosaic.Lib.ValueIdx
import Idealize.ShloMosaic.PureOps.Ideal.Laws

noncomputable section

open scoped BigOperators

namespace Cert.KernelIdeal.Block

open Cert.KernelIdeal Cert.KernelIdeal.Gen Idealize.ShloMosaic Idealize.ShloMosaic.ValueIdx

/-! ## The three contractions, each into a zero accumulator -/

theorem contract_enc_lhs_non (i : S320x128.Idx) (q : dot_S320x768_S128x768_S320x128_1_1_0_0_n_n.contr.Idx) :
    (dot_S320x768_S128x768_S320x128_1_1_0_0_n_n.lhsIdx i q 0).val = (i 0).val := by
  unfold DotDims.lhsIdx
  rw [dif_neg (show ¬(0 : Fin S320x768.rank) ∈ dot_S320x768_S128x768_S320x128_1_1_0_0_n_n.lhsBatch by decide),
    dif_pos (show (0 : Fin S320x768.rank) ∈ dot_S320x768_S128x768_S320x128_1_1_0_0_n_n.lhsNonContracting by decide)]
  rfl
theorem contract_enc_rhs_non (i : S320x128.Idx) (q : dot_S320x768_S128x768_S320x128_1_1_0_0_n_n.contr.Idx) :
    (dot_S320x768_S128x768_S320x128_1_1_0_0_n_n.rhsIdx i q 0).val = (i 1).val := by
  unfold DotDims.rhsIdx
  rw [dif_neg (show ¬(0 : Fin S128x768.rank) ∈ dot_S320x768_S128x768_S320x128_1_1_0_0_n_n.rhsBatch by decide),
    dif_pos (show (0 : Fin S128x768.rank) ∈ dot_S320x768_S128x768_S320x128_1_1_0_0_n_n.rhsNonContracting by decide)]
  rfl

/-- `w · xᵀ`, both operands contracted on their last axis: entry `(h, t)` is `Σ_e w[h, e] · x[t, e]`. -/
theorem contract_enc_apply (w : FVec Ideal S320x768 .bf16) (x : FVec Ideal S128x768 .bf16) (h : Fin 320) (t : Fin 128) :
    matmul dot_S320x768_S128x768_S320x128_1_1_0_0_n_n none w x (constant (F := Ideal) S320x128 .f32 0x00000000#32) (ix2 h t)
      = ∑ e : Fin 768, w (ix2 h e) * x (ix2 t e) := by
  simp only [matmul]
  rw [Ideal.matmul_constant_zero_apply, ← Equiv.sum_comp (contrEquiv1 dot_S320x768_S128x768_S320x128_1_1_0_0_n_n 768 rfl rfl).symm]
  refine Finset.sum_congr rfl fun k _ => ?_
  have hk := contrEquiv1_symm_val dot_S320x768_S128x768_S320x128_1_1_0_0_n_n 768 rfl rfl k
  have el : dot_S320x768_S128x768_S320x128_1_1_0_0_n_n.lhsIdx (ix2 h t) ((contrEquiv1 dot_S320x768_S128x768_S320x128_1_1_0_0_n_n 768 rfl rfl).symm k) = ix2 h k :=
    funext fun a => Fin.ext (by
      match a with
      | ⟨0, _⟩ => exact contract_enc_lhs_non _ _
      | ⟨1, _⟩ => exact (dot_S320x768_S128x768_S320x128_1_1_0_0_n_n.lhsIdx_val_of_single rfl _ _).trans hk)
  have er : dot_S320x768_S128x768_S320x128_1_1_0_0_n_n.rhsIdx (ix2 h t) ((contrEquiv1 dot_S320x768_S128x768_S320x128_1_1_0_0_n_n 768 rfl rfl).symm k) = ix2 t k :=
    funext fun a => Fin.ext (by
      match a with
      | ⟨0, _⟩ => exact contract_enc_rhs_non _ _
      | ⟨1, _⟩ => exact (dot_S320x768_S128x768_S320x128_1_1_0_0_n_n.rhsIdx_val_of_single rfl _ _).trans hk)
  rw [el, er]

theorem contract_pred_lhs_non (i : S320x128.Idx) (q : dot_S320x320_S128x320_S320x128_1_1_0_0_n_n.contr.Idx) :
    (dot_S320x320_S128x320_S320x128_1_1_0_0_n_n.lhsIdx i q 0).val = (i 0).val := by
  unfold DotDims.lhsIdx
  rw [dif_neg (show ¬(0 : Fin S320x320.rank) ∈ dot_S320x320_S128x320_S320x128_1_1_0_0_n_n.lhsBatch by decide),
    dif_pos (show (0 : Fin S320x320.rank) ∈ dot_S320x320_S128x320_S320x128_1_1_0_0_n_n.lhsNonContracting by decide)]
  rfl
theorem contract_pred_rhs_non (i : S320x128.Idx) (q : dot_S320x320_S128x320_S320x128_1_1_0_0_n_n.contr.Idx) :
    (dot_S320x320_S128x320_S320x128_1_1_0_0_n_n.rhsIdx i q 0).val = (i 1).val := by
  unfold DotDims.rhsIdx
  rw [dif_neg (show ¬(0 : Fin S128x320.rank) ∈ dot_S320x320_S128x320_S320x128_1_1_0_0_n_n.rhsBatch by decide),
    dif_pos (show (0 : Fin S128x320.rank) ∈ dot_S320x320_S128x320_S320x128_1_1_0_0_n_n.rhsNonContracting by decide)]
  rfl

/-- The same for the predictor: entry `(h, u)` is `Σ_p w[h, p] · x[u, p]`. -/
theorem contract_pred_apply (w : FVec Ideal S320x320 .bf16) (x : FVec Ideal S128x320 .bf16) (h : Fin 320) (u : Fin 128) :
    matmul dot_S320x320_S128x320_S320x128_1_1_0_0_n_n none w x (constant (F := Ideal) S320x128 .f32 0x00000000#32) (ix2 h u)
      = ∑ p : Fin 320, w (ix2 h p) * x (ix2 u p) := by
  simp only [matmul]
  rw [Ideal.matmul_constant_zero_apply, ← Equiv.sum_comp (contrEquiv1 dot_S320x320_S128x320_S320x128_1_1_0_0_n_n 320 rfl rfl).symm]
  refine Finset.sum_congr rfl fun k _ => ?_
  have hk := contrEquiv1_symm_val dot_S320x320_S128x320_S320x128_1_1_0_0_n_n 320 rfl rfl k
  have el : dot_S320x320_S128x320_S320x128_1_1_0_0_n_n.lhsIdx (ix2 h u) ((contrEquiv1 dot_S320x320_S128x320_S320x128_1_1_0_0_n_n 320 rfl rfl).symm k) = ix2 h k :=
    funext fun a => Fin.ext (by
      match a with
      | ⟨0, _⟩ => exact contract_pred_lhs_non _ _
      | ⟨1, _⟩ => exact (dot_S320x320_S128x320_S320x128_1_1_0_0_n_n.lhsIdx_val_of_single rfl _ _).trans hk)
  have er : dot_S320x320_S128x320_S320x128_1_1_0_0_n_n.rhsIdx (ix2 h u) ((contrEquiv1 dot_S320x320_S128x320_S320x128_1_1_0_0_n_n 320 rfl rfl).symm k) = ix2 u k :=
    funext fun a => Fin.ext (by
      match a with
      | ⟨0, _⟩ => exact contract_pred_rhs_non _ _
      | ⟨1, _⟩ => exact (dot_S320x320_S128x320_S320x128_1_1_0_0_n_n.rhsIdx_val_of_single rfl _ _).trans hk)
  rw [el, er]

theorem contract_out_lhs_non (i : S34x16384.Idx) (q : dot_S34x320_S320x16384_S34x16384_1_0_0_1_n_n.contr.Idx) :
    (dot_S34x320_S320x16384_S34x16384_1_0_0_1_n_n.lhsIdx i q 0).val = (i 0).val := by
  unfold DotDims.lhsIdx
  rw [dif_neg (show ¬(0 : Fin S34x320.rank) ∈ dot_S34x320_S320x16384_S34x16384_1_0_0_1_n_n.lhsBatch by decide),
    dif_pos (show (0 : Fin S34x320.rank) ∈ dot_S34x320_S320x16384_S34x16384_1_0_0_1_n_n.lhsNonContracting by decide)]
  rfl
theorem contract_out_rhs_non (i : S34x16384.Idx) (q : dot_S34x320_S320x16384_S34x16384_1_0_0_1_n_n.contr.Idx) :
    (dot_S34x320_S320x16384_S34x16384_1_0_0_1_n_n.rhsIdx i q 1).val = (i 1).val := by
  unfold DotDims.rhsIdx
  rw [dif_neg (show ¬(1 : Fin S320x16384.rank) ∈ dot_S34x320_S320x16384_S34x16384_1_0_0_1_n_n.rhsBatch by decide),
    dif_pos (show (1 : Fin S320x16384.rank) ∈ dot_S34x320_S320x16384_S34x16384_1_0_0_1_n_n.rhsNonContracting by decide)]
  rfl

/-- The read-out product `w · J`, the plain matrix product: entry `(c, n)` is `Σ_h w[c, h] · J[h, n]`. -/
theorem contract_out_apply (w : FVec Ideal S34x320 .bf16) (x : FVec Ideal S320x16384 .bf16) (c : Fin 34) (n : Fin 16384) :
    matmul dot_S34x320_S320x16384_S34x16384_1_0_0_1_n_n none w x (constant (F := Ideal) S34x16384 .f32 0x00000000#32) (ix2 c n)
      = ∑ h : Fin 320, w (ix2 c h) * x (ix2 h n) := by
  simp only [matmul]
  rw [Ideal.matmul_constant_zero_apply, ← Equiv.sum_comp (contrEquiv1 dot_S34x320_S320x16384_S34x16384_1_0_0_1_n_n 320 rfl rfl).symm]
  refine Finset.sum_congr rfl fun k _ => ?_
  have hk := contrEquiv1_symm_val dot_S34x320_S320x16384_S34x16384_1_0_0_1_n_n 320 rfl rfl k
  have el : dot_S34x320_S320x16384_S34x16384_1_0_0_1_n_n.lhsIdx (ix2 c n) ((contrEquiv1 dot_S34x320_S320x16384_S34x16384_1_0_0_1_n_n 320 rfl rfl).symm k) = ix2 c k :=
    funext fun a => Fin.ext (by
      match a with
      | ⟨0, _⟩ => exact contract_out_lhs_non _ _
      | ⟨1, _⟩ => exact (dot_S34x320_S320x16384_S34x16384_1_0_0_1_n_n.lhsIdx_val_of_single rfl _ _).trans hk)
  have er : dot_S34x320_S320x16384_S34x16384_1_0_0_1_n_n.rhsIdx (ix2 c n) ((contrEquiv1 dot_S34x320_S320x16384_S34x16384_1_0_0_1_n_n 320 rfl rfl).symm k) = ix2 k n :=
    funext fun a => Fin.ext (by
      match a with
      | ⟨1, _⟩ => exact contract_out_rhs_non _ _
      | ⟨0, _⟩ => exact (dot_S34x320_S320x16384_S34x16384_1_0_0_1_n_n.rhsIdx_val_of_single rfl _ _).trans hk)
  rw [el, er]

/-! ## The stages of the body, as functions of the loaded blocks -/

/-- The encoder projection, hidden unit first: `f[h, t]`. -/
def projEnc (enc : FVec Ideal S1x128x768 .f32) (ew : FVec Ideal S320x768 .bf16) (eb : FVec Ideal S320 .f32) : FVec Ideal S320x128 .f32 :=
  addf (matmul dot_S320x768_S128x768_S320x128_1_1_0_0_n_n none (shapeCast S320x768 ew shapeCasts_S320x768_S320x768)
      (truncf .bf16 (shapeCast S128x768 enc shapeCasts_S1x128x768_S128x768) bitsLt_bf16_f32) (constant S320x128 .f32 0x00000000#32))
    (broadcastTo S320x128 (shapeCast S320x1 eb shapeCasts_S320_S320x1) broadcasts_S320x1_S320x128)

/-- The predictor projection, hidden unit first: `g[h, u]`. -/
def projPred (pred : FVec Ideal S1x128x320 .f32) (pw : FVec Ideal S320x320 .bf16) (pb : FVec Ideal S320 .f32) : FVec Ideal S320x128 .f32 :=
  addf (matmul dot_S320x320_S128x320_S320x128_1_1_0_0_n_n none (shapeCast S320x320 pw shapeCasts_S320x320_S320x320)
      (truncf .bf16 (shapeCast S128x320 pred shapeCasts_S1x128x320_S128x320) bitsLt_bf16_f32) (constant S320x128 .f32 0x00000000#32))
    (broadcastTo S320x128 (shapeCast S320x1 pb shapeCasts_S320_S320x1) broadcasts_S320x1_S320x128)

/-- The rectified sum of the two projections over `(h, t, u)`. -/
def joint (f g : FVec Ideal S320x128 .f32) : FVec Ideal S320x128x128 .bf16 :=
  truncf .bf16 (maximumf
      (addf (broadcastTo S320x128x128 (shapeCast S320x128x1 f shapeCasts_S320x128_S320x128x1) broadcasts_S320x128x1_S320x128x128)
        (broadcastTo S320x128x128 (shapeCast S320x1x128 g shapeCasts_S320x128_S320x1x128) broadcasts_S320x1x128_S320x128x128))
      (broadcast S320x128x128 (Scalar.ofBits (F := Ideal) .f32 0x00000000#32))) bitsLt_bf16_f32

/-- The read-out over the flattened `(t, u)`, the bias, and the class axis moved last. -/
def readout (ow : FVec Ideal S34x320 .bf16) (J : FVec Ideal S320x128x128 .bf16) (ob : FVec Ideal S34 .f32) : FVec Ideal S128x128x34 .f32 :=
  transpose S128x128x34 [1, 2, 0]
    (shapeCast S34x128x128
      (addf (matmul dot_S34x320_S320x16384_S34x16384_1_0_0_1_n_n none (shapeCast S34x320 ow shapeCasts_S34x320_S34x320)
          (shapeCast S320x16384 J shapeCasts_S320x128x128_S320x16384) (constant S34x16384 .f32 0x00000000#32))
        (broadcastTo S34x16384 (shapeCast S34x1 ob shapeCasts_S34_S34x1) broadcasts_S34x1_S34x16384))
      shapeCasts_S34x16384_S34x128x128)
    transposes_S34x128x128_p1_2_0_S128x128x34

/-- The body's arithmetic is these four stages composed. -/
theorem pay_eq (P0 : FVec Ideal S1x128x768 .f32) (P1 : FVec Ideal S1x128x320 .f32) (P2 : FVec Ideal S320x768 .bf16)
    (P3 : FVec Ideal S320 .f32) (P4 : FVec Ideal S320x320 .bf16) (P5 : FVec Ideal S320 .f32) (P6 : FVec Ideal S34x320 .bf16)
    (P7 : FVec Ideal S34 .f32) :
    k0_pay2 (F := Ideal) P0 P1 P2 P3 P4 P5 P6 P7 = readout P6 (joint (projEnc P0 P2 P3) (projPred P1 P4 P5)) P7 := rfl

/-! ## Each stage at an index -/

/-- A bias column `[320] → [320, 1] → [320, 128]` read at `(h, t)` is the bias at `h`. -/
theorem biasCol_apply (eb : FVec Ideal S320 .f32) (h : Fin 320) (t : Fin 128) :
    broadcastTo S320x128 (shapeCast S320x1 eb shapeCasts_S320_S320x1) broadcasts_S320x1_S320x128 (ix2 h t) = eb (ix1 h) := by
  refine (broadcastTo_apply _ broadcasts_S320x1_S320x128 (ix2 h t) (ix2 h (0 : Fin 1)) (fun a => ?_)).trans ?_
  · match a with
    | ⟨0, _⟩ => show h.val = if (320 : Nat) = 1 then 0 else h.val; rw [if_neg (by decide)]
    | ⟨1, _⟩ => show 0 = if (1 : Nat) = 1 then 0 else t.val; rw [if_pos rfl]
  · exact shapeCast_apply eb shapeCasts_S320_S320x1 (ix2 h (0 : Fin 1)) (ix1 h)
      (by rw [Shape.rowMajor_val_one, Shape.rowMajor_val_two]; show h.val = h.val * 1 + 0; omega)

theorem projEnc_apply (enc : FVec Ideal S1x128x768 .f32) (ew : FVec Ideal S320x768 .bf16) (eb : FVec Ideal S320 .f32)
    (z : Fin 1) (h : Fin 320) (t : Fin 128) :
    projEnc enc ew eb (ix2 h t) = ∑ e : Fin 768, enc (ix3 z t e) * ew (ix2 h e) + eb (ix1 h) := by
  unfold projEnc
  rw [addf_apply, biasCol_apply, shapeCast_self]
  refine congrArg (· + eb (ix1 h)) ((contract_enc_apply _ _ h t).trans (Finset.sum_congr rfl fun e _ => ?_))
  rw [mul_comm]
  refine congrArg (· * ew (ix2 h e)) ?_
  rw [truncf_apply]
  exact shapeCast_apply enc shapeCasts_S1x128x768_S128x768 (ix2 t e) (ix3 z t e)
    (by rw [Shape.rowMajor_val_three, Shape.rowMajor_val_two]
        show (z.val * 128 + t.val) * 768 + e.val = t.val * 768 + e.val
        have := z.isLt; omega)

theorem projPred_apply (pred : FVec Ideal S1x128x320 .f32) (pw : FVec Ideal S320x320 .bf16) (pb : FVec Ideal S320 .f32)
    (z : Fin 1) (h : Fin 320) (u : Fin 128) :
    projPred pred pw pb (ix2 h u) = ∑ p : Fin 320, pred (ix3 z u p) * pw (ix2 h p) + pb (ix1 h) := by
  unfold projPred
  rw [addf_apply, biasCol_apply, shapeCast_self]
  refine congrArg (· + pb (ix1 h)) ((contract_pred_apply _ _ h u).trans (Finset.sum_congr rfl fun p _ => ?_))
  rw [mul_comm]
  refine congrArg (· * pw (ix2 h p)) ?_
  rw [truncf_apply]
  exact shapeCast_apply pred shapeCasts_S1x128x320_S128x320 (ix2 u p) (ix3 z u p)
    (by rw [Shape.rowMajor_val_three, Shape.rowMajor_val_two]
        show (z.val * 128 + u.val) * 320 + p.val = u.val * 320 + p.val
        have := z.isLt; omega)

/-- `J[h, t, u] = max (f[h, t] + g[h, u]) 0`: each broadcast forgets the coordinate it added. -/
theorem joint_apply (f g : FVec Ideal S320x128 .f32) (h : Fin 320) (t u : Fin 128) :
    joint f g (ix3 h t u) = max (f (ix2 h t) + g (ix2 h u)) (Ideal.ofBits .f32 0x00000000#32) := by
  unfold joint
  rw [truncf_apply, maximumf_apply, addf_apply, broadcast_apply]
  refine congrArg₂ max (congrArg₂ (· + ·) ?_ ?_) rfl
  · refine (broadcastTo_apply _ broadcasts_S320x128x1_S320x128x128 (ix3 h t u) (ix3 h t (0 : Fin 1)) (fun a => ?_)).trans ?_
    · match a with
      | ⟨0, _⟩ => show h.val = if (320 : Nat) = 1 then 0 else h.val; rw [if_neg (by decide)]
      | ⟨1, _⟩ => show t.val = if (128 : Nat) = 1 then 0 else t.val; rw [if_neg (by decide)]
      | ⟨2, _⟩ => show 0 = if (1 : Nat) = 1 then 0 else u.val; rw [if_pos rfl]
    · exact shapeCast_apply f shapeCasts_S320x128_S320x128x1 (ix3 h t (0 : Fin 1)) (ix2 h t)
        (by rw [Shape.rowMajor_val_three, Shape.rowMajor_val_two]; show h.val * 128 + t.val = (h.val * 128 + t.val) * 1 + 0; omega)
  · refine (broadcastTo_apply _ broadcasts_S320x1x128_S320x128x128 (ix3 h t u) (ix3 h (0 : Fin 1) u) (fun a => ?_)).trans ?_
    · match a with
      | ⟨0, _⟩ => show h.val = if (320 : Nat) = 1 then 0 else h.val; rw [if_neg (by decide)]
      | ⟨1, _⟩ => show 0 = if (1 : Nat) = 1 then 0 else t.val; rw [if_pos rfl]
      | ⟨2, _⟩ => show u.val = if (128 : Nat) = 1 then 0 else u.val; rw [if_neg (by decide)]
    · exact shapeCast_apply g shapeCasts_S320x128_S320x1x128 (ix3 h (0 : Fin 1) u) (ix2 h u)
        (by rw [Shape.rowMajor_val_three, Shape.rowMajor_val_two]; show h.val * 128 + u.val = (h.val * 1 + 0) * 128 + u.val; omega)

/-- The read-out at `(t, u, c)`: the transposition sends it to `(c, t, u)`, the un-flattening to column `128 t + u`. -/
theorem readout_apply (ow : FVec Ideal S34x320 .bf16) (J : FVec Ideal S320x128x128 .bf16) (ob : FVec Ideal S34 .f32)
    (t u : Fin 128) (c : Fin 34) :
    readout ow J ob (ix3 t u c) = ∑ h : Fin 320, J (ix3 h t u) * ow (ix2 c h) + ob (ix1 c) := by
  have hn : t.val * 128 + u.val < 16384 := by have := t.isLt; have := u.isLt; omega
  unfold readout
  refine (transpose_apply _ _ transposes_S34x128x128_p1_2_0_S128x128x34 (ix3 t u c) (ix3 c t u) (fun b => ?_)).trans ?_
  · match b with
    | ⟨0, _⟩ => rfl
    | ⟨1, _⟩ => rfl
    | ⟨2, _⟩ => rfl
  refine (shapeCast_apply _ shapeCasts_S34x16384_S34x128x128 (ix3 c t u) (ix2 c (⟨t.val * 128 + u.val, hn⟩ : Fin 16384))
    (by rw [Shape.rowMajor_val_three, Shape.rowMajor_val_two]
        show c.val * 16384 + (t.val * 128 + u.val) = (c.val * 128 + t.val) * 128 + u.val; omega)).trans ?_
  rw [addf_apply, shapeCast_self]
  refine congrArg₂ (· + ·) ((contract_out_apply _ _ c _).trans (Finset.sum_congr rfl fun h _ => ?_)) ?_
  · rw [mul_comm]
    refine congrArg (· * ow (ix2 c h)) ?_
    exact shapeCast_apply J shapeCasts_S320x128x128_S320x16384 (ix2 h (⟨t.val * 128 + u.val, hn⟩ : Fin 16384)) (ix3 h t u)
      (by rw [Shape.rowMajor_val_three, Shape.rowMajor_val_two]
          show (h.val * 128 + t.val) * 128 + u.val = h.val * 16384 + (t.val * 128 + u.val); omega)
  · refine (broadcastTo_apply _ broadcasts_S34x1_S34x16384 (ix2 c (⟨t.val * 128 + u.val, hn⟩ : Fin 16384)) (ix2 c (0 : Fin 1)) (fun a => ?_)).trans ?_
    · match a with
      | ⟨0, _⟩ => show c.val = if (34 : Nat) = 1 then 0 else c.val; rw [if_neg (by decide)]
      | ⟨1, _⟩ => show 0 = if (1 : Nat) = 1 then 0 else t.val * 128 + u.val; rw [if_pos rfl]
    · exact shapeCast_apply ob shapeCasts_S34_S34x1 (ix2 c (0 : Fin 1)) (ix1 c)
        (by rw [Shape.rowMajor_val_one, Shape.rowMajor_val_two]; show c.val = c.val * 1 + 0; omega)

/-! ## The block at an index -/

/-- What the body stores at `(z, t, u, c)` of its output block (`z` the unit leading axis), from the loaded blocks. -/
theorem block_apply (P0 : FVec Ideal S1x128x768 .f32) (P1 : FVec Ideal S1x128x320 .f32) (P2 : FVec Ideal S320x768 .bf16)
    (P3 : FVec Ideal S320 .f32) (P4 : FVec Ideal S320x320 .bf16) (P5 : FVec Ideal S320 .f32) (P6 : FVec Ideal S34x320 .bf16)
    (P7 : FVec Ideal S34 .f32) (z : Fin 1) (t u : Fin 128) (c : Fin 34) :
    k0_pay1 (k0_pay2 (F := Ideal) P0 P1 P2 P3 P4 P5 P6 P7) (ix4 z t u c)
      = ∑ h : Fin 320,
          max ((∑ e : Fin 768, P0 (ix3 z t e) * P2 (ix2 h e) + P3 (ix1 h))
              + (∑ p : Fin 320, P1 (ix3 z u p) * P4 (ix2 h p) + P5 (ix1 h))) (Ideal.ofBits .f32 0x00000000#32)
            * P6 (ix2 c h)
        + P7 (ix1 c) := by
  rw [pay_eq]
  show shapeCast S1x128x128x34 (readout P6 (joint (projEnc P0 P2 P3) (projPred P1 P4 P5)) P7)
    shapeCasts_S128x128x34_S1x128x128x34 (ix4 z t u c) = _
  refine (shapeCast_apply _ shapeCasts_S128x128x34_S1x128x128x34 (ix4 z t u c) (ix3 t u c)
    (by rw [Shape.rowMajor_val_three, Shape.rowMajor_val_four]
        show (t.val * 128 + u.val) * 34 + c.val = ((z.val * 128 + t.val) * 128 + u.val) * 34 + c.val
        have := z.isLt; omega)).trans ?_
  rw [readout_apply]
  refine congrArg (· + P7 (ix1 c)) (Finset.sum_congr rfl fun h _ => congrArg (· * P6 (ix2 c h)) ?_)
  rw [joint_apply, projEnc_apply P0 P2 P3 z h t, projPred_apply P1 P4 P5 z h u]

end Cert.KernelIdeal.Block

end
-- ==== Proof.KernelLogits.lean ====
/-
  From blocks to the array: the kernel's result array is `JointSpec.logits` of the arguments.

  The grid has 8 × 4 points; point `(i, j)` reads frames `128 j … 128 j + 127` of batch element `i` of the encoder
  array, the whole predictor slice of batch element `i`, and every parameter array whole (its block index is zero on
  every axis), and writes the block `[i, 128 j … 128 j + 127, :, :]` of the result. So the entry the body stores at
  `(z, t, u, c)` of its block is the specification's logit at `(i, 128 j + t, u, c)`: the block's loads are the
  arguments at exactly the coordinates the specification reads. The 32 blocks tile the result array (`i` ranges over
  the 8 batch elements, `j` over the 4 quarters of the 512 frames), hence the array after the run is the
  specification everywhere. The three weight matrices reach the region through a change of float format, which on the
  extended reals is the identity.
-/
import proofs.«170953_j52149492908815_2_alg».proof.Proof.Gen.KernelIdeal.Value
import proofs.«170953_j52149492908815_2_alg».proof.Proof.BlockLogits
import proofs.«170953_j52149492908815_2_alg».proof.Proof.JointSpec
import Idealize.ShloMosaic.Lib.Pipeline.Value
import Idealize.ShloMosaic.Lib.StableHlo.Run
import Idealize.ShloMosaic.Lib.Tactic

noncomputable section

open scoped BigOperators

namespace Cert.KernelIdeal.Logits

open Cert.KernelIdeal Cert.KernelIdeal.Gen Cert.KernelIdeal.Block Cert.JointSpec
open Idealize.ShloMosaic Idealize.ShloMosaic.TcCoe Idealize.SL.Sem Idealize.ShloMosaic.ValueIdx
open Idealize.ShloMosaic.Pipeline (Dat)

variable (m : (ℓ : Loc nD τ sig) → Buf (Elt Ideal) ℓ) (ρ : Dev nD → PrngReg)

theorem hz4 : (![0, 0, 0, 0] : Fin 4 → Nat) = fun _ => 0 := funext fun a => by fin_cases a <;> rfl
theorem hz3 : (![0, 0, 0] : Fin 3 → Nat) = fun _ => 0 := funext fun a => by fin_cases a <;> rfl
theorem hz2 : (![0, 0] : Fin 2 → Nat) = fun _ => 0 := funext fun a => by fin_cases a <;> rfl
theorem hz1 : (![0] : Fin 1 → Nat) = fun _ => 0 := funext fun a => by fin_cases a <;> rfl

/-- The specification over the arrays as the region finds them. -/
abbrev atEntry (c : Dev nD) : S8x512x128x34.Idx → EReal :=
  logits (V m c main_arg0) (V m c main_arg1) (V m c main_v0) (V m c main_arg3) (V m c main_v1) (V m c main_arg5)
    (V m c main_v2) (V m c main_arg7)

/-- The block indices over the grid: the encoder window follows the output on the batch and frame axes, the predictor
    window on the batch axis, every other coordinate of every window is zero; the output's block index ranges over
    `8 × 4`. -/
theorem idx_facts : ∀ t : Fin cfg0.N,
    win0_0.index t (0 : Fin 3) = win0_8.index t (0 : Fin 4) ∧ win0_0.index t (1 : Fin 3) = win0_8.index t (1 : Fin 4)
    ∧ win0_0.index t (2 : Fin 3) = 0
    ∧ win0_1.index t (0 : Fin 3) = win0_8.index t (0 : Fin 4) ∧ win0_1.index t (1 : Fin 3) = 0 ∧ win0_1.index t (2 : Fin 3) = 0
    ∧ win0_2.index t (0 : Fin 2) = 0 ∧ win0_2.index t (1 : Fin 2) = 0
    ∧ win0_3.index t (0 : Fin 1) = 0
    ∧ win0_4.index t (0 : Fin 2) = 0 ∧ win0_4.index t (1 : Fin 2) = 0
    ∧ win0_5.index t (0 : Fin 1) = 0
    ∧ win0_6.index t (0 : Fin 2) = 0 ∧ win0_6.index t (1 : Fin 2) = 0
    ∧ win0_7.index t (0 : Fin 1) = 0
    ∧ win0_8.index t (2 : Fin 4) = 0 ∧ win0_8.index t (3 : Fin 4) = 0
    ∧ win0_8.index t (0 : Fin 4) ≤ 7 ∧ win0_8.index t (1 : Fin 4) ≤ 3 :=
  (by decide +kernel : ∀ t : Fin grid0.N, _)

/-- Every block of the `8 × 4` box is some point's. -/
theorem idx_onto : ∀ (q0 : Fin 8) (q1 : Fin 4), ∃ t : Fin cfg0.N, win0_8.index t = ![q0.val, q1.val, 0, 0] :=
  (by decide +kernel : ∀ (q0 : Fin 8) (q1 : Fin 4), ∃ t : Fin grid0.N, win0_8.index t = ![q0.val, q1.val, 0, 0])

/-- The body's stored entry, for a block index `j` given as a whole (its coordinates `j 0 … j 3`). -/
theorem block_at (P0 : FVec Ideal S1x128x768 .f32) (P1 : FVec Ideal S1x128x320 .f32) (P2 : FVec Ideal S320x768 .bf16)
    (P3 : FVec Ideal S320 .f32) (P4 : FVec Ideal S320x320 .bf16) (P5 : FVec Ideal S320 .f32) (P6 : FVec Ideal S34x320 .bf16)
    (P7 : FVec Ideal S34 .f32) (j : S1x128x128x34.Idx) :
    k0_pay1 (k0_pay2 (F := Ideal) P0 P1 P2 P3 P4 P5 P6 P7) j
      = ∑ h : Fin 320,
          max ((∑ e : Fin 768, P0 (ix3 (j 0) (j 1) e) * P2 (ix2 h e) + P3 (ix1 h))
              + (∑ p : Fin 320, P1 (ix3 (j 0) (j 2) p) * P4 (ix2 h p) + P5 (ix1 h))) (Ideal.ofBits .f32 0x00000000#32)
            * P6 (ix2 (j 3) h)
        + P7 (ix1 (j 3)) :=
  (congrArg (k0_pay1 (k0_pay2 (F := Ideal) P0 P1 P2 P3 P4 P5 P6 P7)) (eq_ix4 j)).trans
    (block_apply P0 P1 P2 P3 P4 P5 P6 P7 (j 0) (j 1) (j 2) (j 3))

/-- WHAT POINT `t` WRITES BACK is block `t` of the specification over the arrays as the region finds them. -/
theorem flushed_eq (c : Dev nD) (t : Fin cfg0.N) :
    (dats m 0 c).flushed 8 t = ((cfg0.win 8).blk t).view.read (Elt Ideal) (atEntry m c) := by
  show (cfg0.win 8).cut (grid0.coords t) ((dats m 0 c).after 8 t) = _
  rw [after0_8]
  unfold out0_8
  rw [View.canon_unit_zero hz4]
  simp only [View.ld_unit_zero (S := S1x128x768) hz3, View.ld_unit_zero (S := S1x128x320) hz3,
    View.ld_unit_zero (S := S320x768) hz2, View.ld_unit_zero (S := S320) hz1, View.ld_unit_zero (S := S320x320) hz2,
    View.ld_unit_zero (S := S34x320) hz2, View.ld_unit_zero (S := S34) hz1]
  obtain ⟨f00, f01, f02, f10, f11, f12, f20, f21, f30, f40, f41, f50, f60, f61, f70, f82, f83, -, -⟩ := idx_facts t
  funext j
  show k0_pay1 (k0_pay2 (F := Ideal) (iblk m c 0 t) (iblk m c 1 t) (iblk m c 2 t) (iblk m c 3 t) (iblk m c 4 t) (iblk m c 5 t)
      (iblk m c 6 t) (iblk m c 7 t)) j = atEntry m c (((cfg0.win 8).blk t).view.emb j)
  refine (block_at (iblk m c 0 t) (iblk m c 1 t) (iblk m c 2 t) (iblk m c 3 t) (iblk m c 4 t) (iblk m c 5 t)
      (iblk m c 6 t) (iblk m c 7 t) j).trans ?_
  show _ = logitAt (V m c main_arg0) (V m c main_arg1) (V m c main_v0) (V m c main_arg3) (V m c main_v1) (V m c main_arg5)
    (V m c main_v2) (V m c main_arg7) _ _ _ _
  unfold logitAt Cert.JointSpec.hidden
  refine congrArg₂ (· + ·) (Finset.sum_congr rfl fun h _ => congrArg₂ (· * ·) (congrArg₂ max (congrArg₂ (· + ·)
    (congrArg₂ (· + ·) (Finset.sum_congr rfl fun e _ => congrArg₂ (· * ·) ?_ ?_) ?_)
    (congrArg₂ (· + ·) (Finset.sum_congr rfl fun p _ => congrArg₂ (· * ·) ?_ ?_) ?_)) rfl) ?_) ?_
  · -- the encoder tile: frame 128 j + t of batch element i
    show V m c main_arg0 _ = V m c main_arg0 _
    refine congrArg (V m c main_arg0) (funext fun a => Fin.ext ?_)
    match a with
    | ⟨0, _⟩ => show win0_0.index t 0 * 1 + 1 * (j 0).val = win0_8.index t 0 * 1 + 1 * (j 0).val; rw [f00]
    | ⟨1, _⟩ => show win0_0.index t 1 * 128 + 1 * (j 1).val = win0_8.index t 1 * 128 + 1 * (j 1).val; rw [f01]
    | ⟨2, _⟩ => show win0_0.index t 2 * 768 + 1 * e.val = e.val; rw [f02]; omega
  · -- the encoder weights, whole
    show V m c main_v0 _ = V m c main_v0 _
    refine congrArg (V m c main_v0) (funext fun a => Fin.ext ?_)
    match a with
    | ⟨0, _⟩ => show win0_2.index t 0 * 320 + 1 * h.val = h.val; rw [f20]; omega
    | ⟨1, _⟩ => show win0_2.index t 1 * 768 + 1 * e.val = e.val; rw [f21]; omega
  · -- the encoder bias, whole
    show V m c main_arg3 _ = V m c main_arg3 _
    refine congrArg (V m c main_arg3) (funext fun a => Fin.ext ?_)
    match a with
    | ⟨0, _⟩ => show win0_3.index t 0 * 320 + 1 * h.val = h.val; rw [f30]; omega
  · -- the predictor slice of batch element i, whole along its steps
    show V m c main_arg1 _ = V m c main_arg1 _
    refine congrArg (V m c main_arg1) (funext fun a => Fin.ext ?_)
    match a with
    | ⟨0, _⟩ => show win0_1.index t 0 * 1 + 1 * (j 0).val = win0_8.index t 0 * 1 + 1 * (j 0).val; rw [f10]
    | ⟨1, _⟩ => show win0_1.index t 1 * 128 + 1 * (j 2).val = win0_8.index t 2 * 128 + 1 * (j 2).val; rw [f11, f82]
    | ⟨2, _⟩ => show win0_1.index t 2 * 320 + 1 * p.val = p.val; rw [f12]; omega
  · -- the predictor weights, whole
    show V m c main_v1 _ = V m c main_v1 _
    refine congrArg (V m c main_v1) (funext fun a => Fin.ext ?_)
    match a with
    | ⟨0, _⟩ => show win0_4.index t 0 * 320 + 1 * h.val = h.val; rw [f40]; omega
    | ⟨1, _⟩ => show win0_4.index t 1 * 320 + 1 * p.val = p.val; rw [f41]; omega
  · -- the predictor bias, whole
    show V m c main_arg5 _ = V m c main_arg5 _
    refine congrArg (V m c main_arg5) (funext fun a => Fin.ext ?_)
    match a with
    | ⟨0, _⟩ => show win0_5.index t 0 * 320 + 1 * h.val = h.val; rw [f50]; omega
  · -- the read-out weights, whole
    show V m c main_v2 _ = V m c main_v2 _
    refine congrArg (V m c main_v2) (funext fun a => Fin.ext ?_)
    match a with
    | ⟨0, _⟩ => show win0_6.index t 0 * 34 + 1 * (j 3).val = win0_8.index t 3 * 34 + 1 * (j 3).val; rw [f60, f83]
    | ⟨1, _⟩ => show win0_6.index t 1 * 320 + 1 * h.val = h.val; rw [f61]; omega
  · -- the read-out bias, whole
    show V m c main_arg7 _ = V m c main_arg7 _
    refine congrArg (V m c main_arg7) (funext fun a => Fin.ext ?_)
    match a with
    | ⟨0, _⟩ => show win0_7.index t 0 * 34 + 1 * (j 3).val = win0_8.index t 3 * 34 + 1 * (j 3).val; rw [f70, f83]

/-- An index of the result array is in point `t`'s block iff each coordinate is in the block's range on its axis. -/
theorem mem_blk (t : Fin cfg0.N) (i : S8x512x128x34.Idx) :
    i ∈ ((cfg0.win 8).blk t).view.set ↔ ∀ a : Fin 4, win0_8.index t a * S1x128x128x34.size a ≤ (i a).val
      ∧ (i a).val < win0_8.index t a * S1x128x128x34.size a + S1x128x128x34.size a := by
  show i ∈ ((View.whole main_v3).slice (win0_8.rect t)).set ↔ _
  rw [View.set_slice_whole, Rect.mem_set_unit]
  exact Iff.rfl

/-- The 32 blocks cover the result array: index `(b, r, u, c)` lies in the block of the point whose block index is
    `(b, r / 128, 0, 0)`. -/
theorem covered (i : S8x512x128x34.Idx) :
    ∃ t : Fin cfg0.N, (cfg0.win 8).flush t = true ∧ i ∈ ((cfg0.win 8).blk t).view.set := by
  have hi0 : (i 0).val < 8 := (i 0).isLt
  have hi1 : (i 1).val < 512 := (i 1).isLt
  have hi2 : (i 2).val < 128 := (i 2).isLt
  have hi3 : (i 3).val < 34 := (i 3).isLt
  obtain ⟨t, ht⟩ := idx_onto ⟨(i 0).val, hi0⟩ ⟨(i 1).val / 128, by omega⟩
  have q0 : win0_8.index t (0 : Fin 4) = (i 0).val := congrFun ht 0
  have q1 : win0_8.index t (1 : Fin 4) = (i 1).val / 128 := congrFun ht 1
  have q2 : win0_8.index t (2 : Fin 4) = 0 := congrFun ht 2
  have q3 : win0_8.index t (3 : Fin 4) = 0 := congrFun ht 3
  refine ⟨t, flush0_8 t, ?_⟩
  rw [mem_blk]
  intro a
  match a with
  | ⟨0, _⟩ => show win0_8.index t (0 : Fin 4) * 1 ≤ (i 0).val ∧ (i 0).val < win0_8.index t (0 : Fin 4) * 1 + 1; omega
  | ⟨1, _⟩ => show win0_8.index t (1 : Fin 4) * 128 ≤ (i 1).val ∧ (i 1).val < win0_8.index t (1 : Fin 4) * 128 + 128; omega
  | ⟨2, _⟩ => show win0_8.index t (2 : Fin 4) * 128 ≤ (i 2).val ∧ (i 2).val < win0_8.index t (2 : Fin 4) * 128 + 128; omega
  | ⟨3, _⟩ => show win0_8.index t (3 : Fin 4) * 34 ≤ (i 3).val ∧ (i 3).val < win0_8.index t (3 : Fin 4) * 34 + 34; omega

/-- THE RESULT ARRAY after the run is the specification over the arrays as the region finds them. -/
theorem final_entry (c : Dev nD) : (dats m 0 c).arrAt 8 cfg0.N = atEntry m c :=
  (dats m 0 c).arrAt_eq_of_cover 8 (atEntry m c) (fun t _ => flushed_eq m c t) covered

/-- A weight matrix as the region finds it is the argument it was converted from: the change of float format is the
    identity on the extended reals. -/
theorem V_main_v0 (c : Dev nD) : (V m c main_v0 : S320x768.Idx → EReal) = m ((c : Thread nD τ).loc main_arg2) := by
  have e : V m c main_v0 = (truncf .bf16 (m ((c : Thread nD τ).loc main_arg2) : FVec Ideal S320x768 .f32) bitsLt_bf16_f32 : FVec Ideal S320x768 .bf16) := by
    dsimp only [V, hostOps0]; after_results
  rw [e]; rfl
theorem V_main_v1 (c : Dev nD) : (V m c main_v1 : S320x320.Idx → EReal) = m ((c : Thread nD τ).loc main_arg4) := by
  have e : V m c main_v1 = (truncf .bf16 (m ((c : Thread nD τ).loc main_arg4) : FVec Ideal S320x320 .f32) bitsLt_bf16_f32 : FVec Ideal S320x320 .bf16) := by
    dsimp only [V, hostOps0]; after_results
  rw [e]; rfl
theorem V_main_v2 (c : Dev nD) : (V m c main_v2 : S34x320.Idx → EReal) = m ((c : Thread nD τ).loc main_arg6) := by
  have e : V m c main_v2 = (truncf .bf16 (m ((c : Thread nD τ).loc main_arg6) : FVec Ideal S34x320 .f32) bitsLt_bf16_f32 : FVec Ideal S34x320 .bf16) := by
    dsimp only [V, hostOps0]; after_results
  rw [e]; rfl

/-- The specification over the arrays as launched. -/
abbrev result (c : Dev nD) : S8x512x128x34.Idx → EReal :=
  logits (m ((c : Thread nD τ).loc main_arg0)) (m ((c : Thread nD τ).loc main_arg1)) (m ((c : Thread nD τ).loc main_arg2))
    (m ((c : Thread nD τ).loc main_arg3)) (m ((c : Thread nD τ).loc main_arg4)) (m ((c : Thread nD τ).loc main_arg5))
    (m ((c : Thread nD τ).loc main_arg6)) (m ((c : Thread nD τ).loc main_arg7))

theorem atEntry_eq (c : Dev nD) : atEntry m c = result m c := by
  unfold atEntry result
  rw [V_main_arg0, V_main_arg1, V_main_arg3, V_main_arg5, V_main_arg7, V_main_v0, V_main_v1, V_main_v2]

/-- The run, read: the result array ends at the specification of the arguments, the arguments unchanged. -/
theorem run : θ_run defs (onTc (τ := τ) (main (F := Ideal))) ⟨m, fun _ => 0, ρ⟩ fun r => ∀ c : Dev nD,
      r.2.mem ((c : Thread nD τ).loc main_v3) = result m c
      ∧ r.2.mem ((c : Thread nD τ).loc main_arg0) = m ((c : Thread nD τ).loc main_arg0)
      ∧ r.2.mem ((c : Thread nD τ).loc main_arg1) = m ((c : Thread nD τ).loc main_arg1)
      ∧ r.2.mem ((c : Thread nD τ).loc main_arg2) = m ((c : Thread nD τ).loc main_arg2)
      ∧ r.2.mem ((c : Thread nD τ).loc main_arg3) = m ((c : Thread nD τ).loc main_arg3)
      ∧ r.2.mem ((c : Thread nD τ).loc main_arg4) = m ((c : Thread nD τ).loc main_arg4)
      ∧ r.2.mem ((c : Thread nD τ).loc main_arg5) = m ((c : Thread nD τ).loc main_arg5)
      ∧ r.2.mem ((c : Thread nD τ).loc main_arg6) = m ((c : Thread nD τ).loc main_arg6)
      ∧ r.2.mem ((c : Thread nD τ).loc main_arg7) = m ((c : Thread nD τ).loc main_arg7) :=
  (θ_run defs _ _).mono (fun r h c => ⟨(h c).1.trans ((final_entry m c).trans (atEntry_eq m c)), (h c).2⟩)
    (Cert.KernelIdeal.Value.run_blocks m ρ)

end Cert.KernelIdeal.Logits

end
-- ==== Proof.lean ====
/-
  The joint network of a transducer: logits[b, t, u, c] = Σ_h relu (f[b, t, h] + g[b, u, h]) · ow[c, h] + ob[c], where
  f and g are the affine projections of the encoder frames and of the predictor steps to 320 hidden units.

  The kernel computes it tile by tile with the hidden unit as the leading axis of every intermediate (weight times
  data, the read-out as one matrix product over the flattened (t, u) columns, a final transposition); the reference
  computes it with the hidden unit last (data times weight). On the extended reals both are the one function
  `JointSpec.logits` of the eight arguments: the contractions are plain finite sums, products commute, and the changes
  of float format on the way into the matrix unit are the identity. No algebraic law that needs finiteness is used,
  so the precondition is never opened.

  * the kernel's result array is `logits` of its arguments: `KernelLogits.run` (the body at an index in `BlockLogits`,
    the 32 blocks tiling the array in `KernelLogits`), over the generated frame run;
  * the reference's result is `logits` of its arguments: `ReferenceLogits.val_eq`, over the generated run of the
    reference read one operation at a time;
  * the three frames are the generated ones; the idealization rewrote nothing, so `preserves` is `True`.
-/
import proofs.«170953_j52149492908815_2_alg».proof.Defs
import proofs.«170953_j52149492908815_2_alg».proof.Proof.Gen.Kernel
import proofs.«170953_j52149492908815_2_alg».proof.Proof.Gen.Kernel.Skeleton
import proofs.«170953_j52149492908815_2_alg».proof.Proof.Gen.Kernel.Launch
import proofs.«170953_j52149492908815_2_alg».proof.Proof.Gen.Kernel.Points
import proofs.«170953_j52149492908815_2_alg».proof.Proof.Gen.Kernel.Frame
import proofs.«170953_j52149492908815_2_alg».proof.Proof.Gen.KernelIdeal
import proofs.«170953_j52149492908815_2_alg».proof.Proof.Gen.KernelIdeal.Skeleton
import proofs.«170953_j52149492908815_2_alg».proof.Proof.Gen.KernelIdeal.Launch
import proofs.«170953_j52149492908815_2_alg».proof.Proof.Gen.KernelIdeal.Points
import proofs.«170953_j52149492908815_2_alg».proof.Proof.Gen.KernelIdeal.Frame
import proofs.«170953_j52149492908815_2_alg».proof.Proof.Gen.ReferenceIdeal
import proofs.«170953_j52149492908815_2_alg».proof.Proof.Gen.Pre_finite_inputs
import proofs.«170953_j52149492908815_2_alg».proof.Proof.Gen.KernelIdeal.Value
import proofs.«170953_j52149492908815_2_alg».proof.Proof.Gen.ReferenceIdeal.Run
import proofs.«170953_j52149492908815_2_alg».proof.Proof.Gen.ReferenceIdeal.Read
import proofs.«170953_j52149492908815_2_alg».proof.Proof.JointSpec
import proofs.«170953_j52149492908815_2_alg».proof.Proof.ReferenceLogits
import proofs.«170953_j52149492908815_2_alg».proof.Proof.KernelLogits
import Idealize.ShloMosaic.Adequacy
import Idealize.ShloMosaic.Init

noncomputable section

namespace Cert.Proof

open Idealize.ShloMosaic Idealize.SL.Sem

theorem frame_kernel : Cert.frame_Kernel := fun m ρ _ => Cert.Kernel.Gen.frame m ρ

theorem frame_kernelIdeal : Cert.frame_KernelIdeal := fun m ρ _ => Cert.KernelIdeal.Gen.frame m ρ

/-- The reference's frame is its run with the result dropped. -/
theorem frame_referenceIdeal : Cert.frame_ReferenceIdeal := fun m ρ _ =>
  (θ_run Cert.ReferenceIdeal.defs _ _).mono (fun _ h c => (h c).2) (Cert.ReferenceIdeal.Value.run (F := Ideal) m ρ)

/-- The idealization rewrote no operation. -/
theorem preserves : Cert.preserves_Kernel_KernelIdeal := trivial

/-- Both runs end with the result array at `JointSpec.logits` of arguments that agree. -/
theorem algebraic : Cert.algebraic_KernelIdeal_ReferenceIdeal := by
  intro m ρ m' ρ' _ hagree
  refine ⟨fun c => Cert.KernelIdeal.Logits.result m c, Cert.KernelIdeal.Logits.run m ρ, ?_⟩
  refine (θ_run Cert.ReferenceIdeal.defs _ _).mono (fun _ h c => ⟨(h c).1.trans ?_, (h c).2⟩)
    (Cert.ReferenceIdeal.Value.run (F := Ideal) m' ρ')
  obtain ⟨a0, a1, a2, a3, a4, a5, a6, a7⟩ := hagree c
  rw [Cert.ReferenceIdeal.Read.val_main_v17_eq, Cert.ReferenceIdeal.Logits.val_eq, a0, a1, a2, a3, a4, a5, a6, a7]

theorem claim : Cert.Claim := ⟨Cert.Kernel.Gen.facts, Cert.KernelIdeal.Gen.facts, Cert.ReferenceIdeal.Gen.facts, Cert.Pre_finite_inputs.Gen.facts,
  frame_kernel, frame_kernelIdeal, frame_referenceIdeal, preserves, algebraic⟩

end Cert.Proof

end
